-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S2x2048x32000 : Shape := ⟨3, ![2, 2048, 32000]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel

variable [Facts]

def fn {F : FTy → Type} [FloatOps F] (main_arg0 : IVec S2x2048 32) (main_arg1 : FVec F S2x2048x32000 .f32) (main_arg2 : FVec F S2x2048x32000 .f32) : IVec S_ 1 :=
  let main_v0 : FVec F S2x2048x32000 .f32 := Host.absf main_arg1
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_v4 : FVec F S2x2048x32000 .f32 := Host.absf main_arg2
  let main_cst_0 : FVec F S_ .f32 := constant S_ .f32 0x7F800000#32
  let main_v5 : FVec F S2x2048x32000 .f32 := broadcastInDim S2x2048x32000 ![] bcast_S_S2x2048x32000 main_cst_0
  let main_v6 : IVec S2x2048x32000 1 := cmpf .olt main_v4 main_v5
  let main_c_1 : IVec S_ 1 := constantI S_ 1 1#1
  let main_v7 : IVec S_ 1 := (fun x v => Host.reduce IntOp.andi x v reducesTo_S2x2048x32000_S_d0_1_2 h_S_) main_v6 main_c_1
  let main_v8 : IVec S_ 1 := andi main_v3 main_v7
  main_v8
-- ==== Kernel.lean ====
abbrev S2x2048 : Shape := ⟨2, ![2, 2048]⟩
abbrev S2x2048x32000 : Shape := ⟨3, ![2, 2048, 32000]⟩
abbrev S2x2047 : Shape := ⟨2, ![2, 2047]⟩
abbrev S_ : Shape := ⟨0, ![]⟩
abbrev S2x1 : Shape := ⟨2, ![2, 1]⟩
abbrev S2x2048x1 : Shape := ⟨3, ![2, 2048, 1]⟩
abbrev S2x1x1 : Shape := ⟨3, ![2, 1, 1]⟩
abbrev S1x32x32000 : Shape := ⟨3, ![1, 32, 32000]⟩
abbrev S1x32x1 : Shape := ⟨3, ![1, 32, 1]⟩
abbrev S1x1x1 : Shape := ⟨3, ![1, 1, 1]⟩
abbrev S32x32000 : Shape := ⟨2, ![32, 32000]⟩
abbrev S32x1 : Shape := ⟨2, ![32, 1]⟩
abbrev S32 : Shape := ⟨1, ![32]⟩
abbrev S1 : Shape := ⟨1, ![1]⟩
abbrev S1x1 : Shape := ⟨2, ![1, 1]⟩

abbrev nBuf : Space → Nat
  | .hbm => 18
  | .vmem => 8
  | .smem => 0
  | _ => 0

abbrev bufTy : (tb : Table) → Fin (tcTables nBuf tb) → BufTy
  | .hbm, ⟨0, _⟩ => ⟨S2x2048, .i32⟩
  | .hbm, ⟨1, _⟩ => ⟨S2x2048x32000, .f32⟩
  | .hbm, ⟨2, _⟩ => ⟨S2x2048x32000, .f32⟩
  | .hbm, ⟨3, _⟩ => ⟨S2x2047, .i32⟩
  | .hbm, ⟨4, _⟩ => ⟨S_, .i32⟩
  | .hbm, ⟨5, _⟩ => ⟨S2x2047, .i32⟩
  | .hbm, ⟨6, _⟩ => ⟨S2x2047, .i1⟩
  | .hbm, ⟨7, _⟩ => ⟨S2x2047, .f32⟩
  | .hbm, ⟨8, _⟩ => ⟨S_, .f32⟩
  | .hbm, ⟨9, _⟩ => ⟨S2x1, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S_, .f32⟩
  | .hbm, ⟨14, _⟩ => ⟨S2x1x1, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x32x32000, .f32⟩
  | .local _ .vmem, ⟨1, _⟩ => ⟨S1x32x32000, .f32⟩
  | .local _ .vmem, ⟨2, _⟩ => ⟨S1x32x32000, .f32⟩
  | .local _ .vmem, ⟨3, _⟩ => ⟨S1x32x32000, .f32⟩
  | .local _ .vmem, ⟨4, _⟩ => ⟨S1x32x1, .f32⟩
  | .local _ .vmem, ⟨5, _⟩ => ⟨S1x32x1, .f32⟩
  | .local _ .vmem, ⟨6, _⟩ => ⟨S1x1x1, .f32⟩
  | .local _ .vmem, ⟨7, _⟩ => ⟨S1x1x1, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x2048_S2x2047_0_1 : S2x2048.Slices ![0, 1] S2x2047
  bcast_S_S2x2047 : S_.BroadcastsInDim S2x2047 (![] : Fin 0 → Fin S2x2047.rank)
  bcast_S_S2x1 : S_.BroadcastsInDim S2x1 (![] : Fin 0 → Fin S2x1.rank)
  concatenates_S2x2047_S2x1_S2x2048_d1 : Shape.Concatenates [S2x2047, S2x1] S2x2048 1
  shapeCasts_S2x2048_S2x2048x1 : S2x2048.ShapeCasts S2x2048x1
  reducesTo_S2x2047_S_d0_1 : S2x2047.ReducesTo [0, 1] S_
  h_S_ : 0 < S_.numel
  inb_S1x1x1_S1x1x1_0_0_0 : ∀ a, (![0, 0, 0] : Fin 3 → Nat) a + S1x1x1.size a ≤ S1x1x1.size a
  h_S1x1x1 : 0 < S1x1x1.numel
  inb_S1x32x32000_S1x32x32000_0_0_0 : ∀ a, (![0, 0, 0] : Fin 3 → Nat) a + S1x32x32000.size a ≤ S1x32x32000.size a
  h_S1x32x32000 : 0 < S1x32x32000.numel
  shapeCasts_S1x32x32000_S32x32000 : S1x32x32000.ShapeCasts S32x32000
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  reduces_S32x32000_S32 : S32x32000.Reduces [1] S32
  shapeCasts_S32_S32x1 : S32.ShapeCasts S32x1
  broadcasts_S32x1_S32x32000 : S32x1.Broadcasts S32x32000
  reduces_S32x1_S1 : S32x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32000.size a ≤ S2x2048x32000.size a
  hwx0_0 : ∀ i : grid0.Coords, EltTy.bits .f32 = 32 ∨ (Rect.block (s := S2x2048x32000) S1x32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32000.size a ≤ S2x2048x32000.size a
  hwx0_1 : ∀ i : grid0.Coords, EltTy.bits .f32 = 32 ∨ (Rect.block (s := S2x2048x32000) S1x32x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1.size a ≤ S2x2048x1.size a
  hwx0_2 : ∀ i : grid0.Coords, EltTy.bits .f32 = 32 ∨ (Rect.block (s := S2x2048x1) S1x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg1) S1x32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x32x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048 : Shape := ⟨2, ![2, 2048]⟩
abbrev S2x2048x32000 : Shape := ⟨3, ![2, 2048, 32000]⟩
abbrev S2x2047 : Shape := ⟨2, ![2, 2047]⟩
abbrev S_ : Shape := ⟨0, ![]⟩
abbrev S2x2047x32000 : Shape := ⟨3, ![2, 2047, 32000]⟩
abbrev S2x2047x1 : Shape := ⟨3, ![2, 2047, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S2x2048x32000, .f32⟩
  | .hbm, ⟨2, _⟩ => ⟨S2x2048x32000, .f32⟩
  | .hbm, ⟨3, _⟩ => ⟨S2x2047, .i32⟩
  | .hbm, ⟨4, _⟩ => ⟨S_, .i32⟩
  | .hbm, ⟨5, _⟩ => ⟨S2x2047, .i32⟩
  | .hbm, ⟨6, _⟩ => ⟨S2x2047, .i1⟩
  | .hbm, ⟨7, _⟩ => ⟨S2x2047, .f32⟩
  | .hbm, ⟨8, _⟩ => ⟨S2x2047x32000, .f32⟩
  | .hbm, ⟨9, _⟩ => ⟨S2x2047x32000, .f32⟩
  | .hbm, ⟨10, _⟩ => ⟨S2x2047x32000, .f32⟩
  | .hbm, ⟨11, _⟩ => ⟨S_, .f32⟩
  | .hbm, ⟨12, _⟩ => ⟨S2x2047x32000, .f32⟩
  | .hbm, ⟨13, _⟩ => ⟨S2x2047x32000, .i1⟩
  | .hbm, ⟨14, _⟩ => ⟨S_, .f32⟩
  | .hbm, ⟨15, _⟩ => ⟨S2x2047, .f32⟩
  | .hbm, ⟨16, _⟩ => ⟨S_, .f32⟩
  | .hbm, ⟨17, _⟩ => ⟨S2x2047, .f32⟩
  | .hbm, ⟨18, _⟩ => ⟨S2x2047, .f32⟩
  | .hbm, ⟨19, _⟩ => ⟨S2x2047x1, .f32⟩
  | .hbm, ⟨20, _⟩ => ⟨S2x2047x32000, .f32⟩
  | .hbm, ⟨21, _⟩ => ⟨S2x2047x32000, .f32⟩
  | .hbm, ⟨22, _⟩ => ⟨S2x2047x32000, .f32⟩
  | .hbm, ⟨23, _⟩ => ⟨S_, .f32⟩
  | .hbm, ⟨24, _⟩ => ⟨S2x2047, .f32⟩
  | .hbm, ⟨25, _⟩ => ⟨S2x2047x1, .f32⟩
  | .hbm, ⟨26, _⟩ => ⟨S2x2047x1, .f32⟩
  | .hbm, ⟨27, _⟩ => ⟨S2x2047x32000, .f32⟩
  | .hbm, ⟨28, _⟩ => ⟨S2x2047x32000, .f32⟩
  | .hbm, ⟨29, _⟩ => ⟨S_, .f32⟩
  | .hbm, ⟨30, _⟩ => ⟨S2x2047, .f32⟩
  | .hbm, ⟨31, _⟩ => ⟨S_, .f32⟩
  | .hbm, ⟨32, _⟩ => ⟨S2x2047, .f32⟩
  | .hbm, ⟨33, _⟩ => ⟨S2x2047, .f32⟩
  | .hbm, ⟨34, _⟩ => ⟨S2x2047x1, .f32⟩
  | .hbm, ⟨35, _⟩ => ⟨S2x2047x32000, .f32⟩
  | .hbm, ⟨36, _⟩ => ⟨S2x2047x32000, .f32⟩
  | .hbm, ⟨37, _⟩ => ⟨S2x2047x32000, .f32⟩
  | .hbm, ⟨38, _⟩ => ⟨S_, .f32⟩
  | .hbm, ⟨39, _⟩ => ⟨S2x2047, .f32⟩
  | .hbm, ⟨40, _⟩ => ⟨S2x2047x1, .f32⟩
  | .hbm, ⟨41, _⟩ => ⟨S2x2047x1, .f32⟩
  | .hbm, ⟨42, _⟩ => ⟨S2x2047x32000, .f32⟩
  | .hbm, ⟨43, _⟩ => ⟨S2x2047x32000, .f32⟩
  | .hbm, ⟨44, _⟩ => ⟨S2x2047x32000, .f32⟩
  | .hbm, ⟨45, _⟩ => ⟨S2x2047x32000, .f32⟩
  | .hbm, ⟨46, _⟩ => ⟨S2x2047x32000, .f32⟩
  | .hbm, ⟨47, _⟩ => ⟨S_, .f32⟩
  | .hbm, ⟨48, _⟩ => ⟨S_, .f32⟩
  | .hbm, ⟨49, _⟩ => ⟨S2x2047x32000, .f32⟩
  | .hbm, ⟨50, _⟩ => ⟨S2x2047x32000, .f32⟩
  | .hbm, ⟨51, _⟩ => ⟨S_, .f32⟩
  | .hbm, ⟨52, _⟩ => ⟨S2x2047, .f32⟩
  | .hbm, ⟨53, _⟩ => ⟨S2x2047, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v7 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_call3_v0 : Ref sig .tc := ⟨.hbm, 48, rfl⟩
abbrev main_call3_v1 : Ref sig .tc := ⟨.hbm, 49, rfl⟩
abbrev main_v12 : Ref sig .tc := ⟨.hbm, 50, rfl⟩
abbrev main_cst_0 : Ref sig .tc := ⟨.hbm, 51, rfl⟩
abbrev main_v13 : Ref sig .tc := ⟨.hbm, 52, rfl⟩
abbrev main_v14 : Ref sig .tc := ⟨.hbm, 53, rfl⟩
abbrev main_cst_1 : Ref sig .tc := ⟨.hbm, 54, rfl⟩
abbrev main_v15 : Ref sig .tc := ⟨.hbm, 55, rfl⟩
abbrev main_cst_2 : Ref sig .tc := ⟨.hbm, 56, rfl⟩
abbrev main_v16 : Ref sig .tc := ⟨.hbm, 57, rfl⟩
abbrev main_v17 : Ref sig .tc := ⟨.hbm, 58, rfl⟩

abbrev nD : Nat := 1
abbrev τ : Topo := Topo.v7x

variable {F : FTy → Type} [FloatOps F]

class Facts₀ : Prop where
  slices_S2x2048_S2x2047_0_1 : S2x2048.Slices ![0, 1] S2x2047
  bcast_S_S2x2047 : S_.BroadcastsInDim S2x2047 (![] : Fin 0 → Fin S2x2047.rank)
  slices_S2x2048x32000_S2x2047x32000_0_0_0 : S2x2048x32000.Slices ![0, 0, 0] S2x2047x32000
  bcast_S_S2x2047x32000 : S_.BroadcastsInDim S2x2047x32000 (![] : Fin 0 → Fin S2x2047x32000.rank)
  reducesTo_S2x2047x32000_S2x2047_d2 : S2x2047x32000.ReducesTo [2] S2x2047
  h_S_ : 0 < S_.numel
  bcast_S2x2047_S2x2047x1_0_1 : S2x2047.BroadcastsInDim S2x2047x1 (![0, 1] : Fin 2 → Fin S2x2047x1.rank)
  bcast_S2x2047x1_S2x2047x32000_0_1_2 : S2x2047x1.BroadcastsInDim S2x2047x32000 (![0, 1, 2] : Fin 3 → Fin S2x2047x32000.rank)
  reducesTo_S2x2047_S_d0_1 : S2x2047.ReducesTo [0, 1] S_

variable [Facts₀]

class Facts : Prop extends Facts₀ where

variable [Facts]
-- ==== Proof.Finite.lean ====
/-
  What the precondition says: every student score and every teacher score is a real number.

  The precondition is the conjunction of two "all entries satisfy |x| < +∞" tests, one per score array.  Over the
  extended reals `|x| = max x (-x)`, and `max x (-x) < ⊤` holds exactly when `x` is neither `⊤` nor `⊥`, that is,
  when `x` is (the coercion of) a real number.
-/
import proofs.«109211_j5231270166835_2_alg».proof.Pre_finite_inputs
import proofs.«109211_j5231270166835_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.KlFinite

open Idealize.ShloMosaic

/-- The word `0x7F800000` is `+∞`. -/
private theorem infWord_eq : Ideal.ofBits .f32 0x7F800000#32 = (⊤ : EReal) := by simp [Ideal.ofBits, Ideal.ieee]

/-- A strict comparison that answers `1` holds. -/
private theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- `max x (-x) < ⊤` leaves `x` neither `⊤` nor `⊥` (whose negation is `⊤`): `x` is a real number. -/
private theorem real_of_abs_lt_top (x : EReal) (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- An entry whose `|x| < +∞` test answers `1` is a real number. -/
private theorem real_of_entry (x : EReal) (h : Ideal.cmp .olt (max x (-x)) (Ideal.ofBits .f32 0x7F800000#32) = 1#1) :
    ∃ r : ℝ, x = (r : EReal) := by
  rw [infWord_eq] at h
  exact real_of_abs_lt_top x (lt_of_cmp_olt _ _ h)

/-- If the finiteness test of the two score arrays answers "true", every entry of both is a real number. -/
theorem real_of_pre (x0 : IVec Cert.Pre_finite_inputs.S2x2048 32)
    (x1 x2 : FVec Ideal Cert.Pre_finite_inputs.S2x2048x32000 .f32)
    (h : Cert.Pre_finite_inputs.fn (F := Ideal) x0 x1 x2 = fun _ => 1#1) :
    (∀ i, ∃ r : ℝ, x1 i = (r : EReal)) ∧ (∀ i, ∃ r : ℝ, x2 i = (r : EReal)) := by
  haveI : Subsingleton Cert.Pre_finite_inputs.S_.Idx := ⟨fun _ _ => funext fun d => d.elim0⟩
  -- the rank-0 result at its one index: the conjunction of the two tests
  have h0 := congrFun h ValueIdx.ix0
  dsimp only [Cert.Pre_finite_inputs.fn] at h0
  obtain ⟨ha, hb⟩ := IntOp.andi_eq_one.1 h0
  refine ⟨fun i => ?_, fun i => ?_⟩
  · -- an "all" that answers 1 met a 1 at every entry
    have hi := Host.reduce_andi_all _ _ _ _ _ ha i
    exact real_of_entry (x1 i) hi
  · have hi := Host.reduce_andi_all _ _ _ _ _ hb i
    exact real_of_entry (x2 i) hi

end Cert.KlFinite

end
-- ==== Proof.KBody.lean ====
/-
  What one grid point of the kernel leaves in the one-entry output block, for any float values.

  The kernel visits the 2 × 64 grid batch by batch; at each point it reads a block of 32 rows of student scores, the same
  rows of teacher scores and the rows' 32 weights, and adds one number — the weighted sum of the 32 rows'
  divergences — to the batch's running total, which lives in a one-entry block that is written back only when the
  batch changes.  At the first point of a batch the total is first reset to zero.  Both cases leave the same function
  `step` of the three input blocks and of the total so far: in the first case the total so far is the zero block.
-/
import proofs.«109211_j5231270166835_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0, 0] : Fin 3 → Nat) = fun _ => 0 := funext fun a => by fin_cases a <;> rfl

/-- The running total after a point: the total before it plus the point's weighted sum of row divergences, as the
    body computes it from the three input blocks. -/
def step (x0 x1 : Vec F S1x32x32000 .f32) (x2 : Vec F S1x32x1 .f32) (acc : Vec F S1x1x1 .f32) : Vec F S1x1x1 .f32 :=
  k0_pay1 (k0_pay4 x2) (k0_pay5 x0) (k0_pay6 x0 x1) (k0_pay7 (F := F)) acc

/-- A point that is not the first of its batch: the one store writes `step` of the blocks and of the total found. -/
theorem out_B (c : Dev nD) (i : grid0.Coords) (arg2 : Memref sig .tc .vmem S1x32x32000 .f32) (harg2 : arg2.IsWhole) (arg3 : Memref sig .tc .vmem S1x32x32000 .f32) (harg3 : arg3.IsWhole) (arg4 : Memref sig .tc .vmem S1x32x1 .f32) (harg4 : arg4.IsWhole) (arg5 : Memref sig .tc .vmem S1x1x1 .f32) (harg5 : arg5.IsWhole) (hc0 : ¬cond0_0 i)
    (x0 : Vec F S1x32x32000 .f32) (x1 : Vec F S1x32x32000 .f32) (x2 : Vec F S1x32x1 .f32) (xo3 : Vec F S1x1x1 .f32) :
    out0_B_3 c i arg2 harg2 arg3 harg3 arg4 harg4 arg5 harg5 hc0 x0 x1 x2 xo3 = step x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz]
  simp only [View.readAt_eq_ld, harg2.read_unread, harg3.read_unread, harg4.read_unread, harg5.read_unread,
    View.ld_unit_zero (S := S1x32x32000) hz, View.ld_unit_zero (S := S1x32x1) hz, View.ld_unit_zero (S := S1x1x1) hz]
  rfl

/-- The first point of a batch: the zero block is stored, read back, and `step` of the blocks and of it is stored. -/
theorem out_A (c : Dev nD) (i : grid0.Coords) (arg2 : Memref sig .tc .vmem S1x32x32000 .f32) (harg2 : arg2.IsWhole) (arg3 : Memref sig .tc .vmem S1x32x32000 .f32) (harg3 : arg3.IsWhole) (arg4 : Memref sig .tc .vmem S1x32x1 .f32) (harg4 : arg4.IsWhole) (arg5 : Memref sig .tc .vmem S1x1x1 .f32) (harg5 : arg5.IsWhole) (hc0 : cond0_0 i)
    (x0 : Vec F S1x32x32000 .f32) (x1 : Vec F S1x32x32000 .f32) (x2 : Vec F S1x32x1 .f32) :
    out0_A_3 c i arg2 harg2 arg3 harg3 arg4 harg4 arg5 harg5 hc0 x0 x1 x2 = step x0 x1 x2 (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread,
    View.ld_unit_zero (S := S1x32x32000) hz, View.ld_unit_zero (S := S1x32x1) hz, View.ld_unit_zero (S := S1x1x1) hz]
  rfl

end Cert.KernelIdeal.Body

end
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.LibMaskedMean.lean ====
/-
  General lemmas for a masked mean of per-row values over the extended reals.

  Subtraction: `a - (M + L) = a - M - L` as soon as `M` is a real number, whatever `a` and `L` are, and `⊥ - y = ⊥`.
  A maximum taken from `⊥` over finitely many values is not `⊤` when no value is, and is not `⊥` when some value is
  not. A fold of 32-bit additions from the zero word is the word of the sum of the summands read as naturals; for one-bit
  flags widened to 32 bits that sum is the number of flags set, which is also the sum of the flags read as extended reals.
  Last, the final step of a masked mean — divide the total by the count clamped below by one when the count is positive,
  else return the total — gives the same extended real whether the count is carried as an extended real or as a 32-bit
  signed word of a number below `2^31`.
-/
import Idealize.ShloMosaic.PureOps.Ideal
import Idealize.ShloMosaic.PureOps.Reduce
import Mathlib.Data.Finset.Fold
import proofs.«109211_j5231270166835_2_alg».proof.Proof.LibWords

noncomputable section

open scoped BigOperators

namespace Cert.Lib.MaskedMean

open Idealize.ShloMosaic

/-! ## Subtraction on the extended reals -/

/-- `a - (M + L) = a - M - L` when `M` is neither infinity. -/
theorem sub_add_of_real (a M L : EReal) (h1 : M ≠ ⊥) (h2 : M ≠ ⊤) : a - (M + L) = a - M - L := by
  rw [sub_eq_add_neg a (M + L), EReal.neg_add (Or.inl h1) (Or.inl h2), sub_eq_add_neg (-M) L, ← add_assoc,
    ← sub_eq_add_neg a M, ← sub_eq_add_neg]

/-- `⊥` minus anything is `⊥`. -/
theorem bot_sub (y : EReal) : (⊥ : EReal) - y = ⊥ := by
  rw [sub_eq_add_neg, EReal.bot_add]

/-! ## A maximum from `⊥` over finite values is finite -/

theorem fold_max_ne_top {ι : Type*} (s : Finset ι) (g : ι → EReal) (h : ∀ c ∈ s, g c ≠ ⊤) : s.fold max ⊥ g ≠ ⊤ :=
  ((Finset.fold_max_lt ⊤).mpr ⟨bot_lt_top, fun c hc => lt_top_iff_ne_top.mpr (h c hc)⟩).ne

theorem fold_max_ne_bot {ι : Type*} (s : Finset ι) (g : ι → EReal) (c : ι) (hc : c ∈ s) (h : g c ≠ ⊥) :
    s.fold max ⊥ g ≠ ⊥ :=
  (lt_of_lt_of_le (bot_lt_iff_ne_bot.mpr h) ((Finset.le_fold_max (g c)).mpr (Or.inr ⟨c, hc, le_rfl⟩))).ne'

/-! ## Counting one-bit flags -/

/-- A fold of 32-bit additions from zero is the word of the sum of the summands as naturals. -/
theorem fold_addi_eq_ofNat {ι : Type*} [DecidableEq ι] (s : Finset ι) (f : ι → BitVec 32) :
    s.fold IntOp.addi 0#32 f = BitVec.ofNat 32 (∑ i ∈ s, (f i).toNat) := by
  induction s using Finset.induction_on with
  | empty => rfl
  | insert a s ha ih =>
    rw [Finset.fold_insert ha, Finset.sum_insert ha, ih]
    apply BitVec.eq_of_toNat_eq
    show ((f a) + BitVec.ofNat 32 _).toNat = _
    rw [BitVec.toNat_add, BitVec.toNat_ofNat, BitVec.toNat_ofNat]
    omega

/-- A one-bit flag widened by zeros to 32 bits holds the flag's own number. -/
theorem toNat_setWidth_bit (b : BitVec 1) : (b.setWidth 32).toNat = b.toNat := by
  rcases BitVec.eq_zero_or_eq_one b with h | h <;> subst h <;> decide

theorem toNat_bit_le (b : BitVec 1) : b.toNat ≤ 1 := by have := b.isLt; omega

/-- The number of flags set, of a finite family of one-bit flags. -/
def count {ι : Type*} [Fintype ι] (b : ι → BitVec 1) : ℕ := ∑ i, (b i).toNat

theorem count_le_card {ι : Type*} [Fintype ι] (b : ι → BitVec 1) : count b ≤ Fintype.card ι := by
  unfold count
  calc ∑ i, (b i).toNat ≤ ∑ _i : ι, 1 := Finset.sum_le_sum fun i _ => toNat_bit_le (b i)
    _ = Fintype.card ι := by simp

/-- The 32-bit sum of the widened flags is the word of their count. -/
theorem fold_addi_flags {ι : Type*} [Fintype ι] [DecidableEq ι] (b : ι → BitVec 1) :
    (Finset.univ : Finset ι).fold IntOp.addi 0#32 (fun i => (b i).setWidth 32) = BitVec.ofNat 32 (count b) := by
  rw [fold_addi_eq_ofNat]
  exact congrArg (BitVec.ofNat 32) (Finset.sum_congr rfl fun i _ => toNat_setWidth_bit (b i))

/-- A finite sum of coerced reals is the coercion of the sum. -/
theorem coe_sum {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The widened flags read as signed integers and summed as extended reals give their count. -/
theorem sum_flags_ereal {ι : Type*} [Fintype ι] (b : ι → BitVec 1) :
    ∑ i, ((((b i).setWidth 32).toInt : ℝ) : EReal) = (((count b : ℕ) : ℝ) : EReal) := by
  have h : ∀ i, ((((b i).setWidth 32).toInt : ℝ) : EReal) = ((((b i).toNat : ℕ) : ℝ) : EReal) := fun i => by
    have e : ((b i).setWidth 32).toInt = ((b i).toNat : ℤ) := by
      rcases BitVec.eq_zero_or_eq_one (b i) with h | h <;> rw [h] <;> decide
    rw [e, Int.cast_natCast]
  rw [Finset.sum_congr rfl fun i _ => h i, coe_sum]
  unfold count
  rw [Nat.cast_sum]

/-! ## The last step of a masked mean, with the count as an extended real or as a signed word -/

/-- The mean's last step with the count an extended real. -/
def lossF (tot cf : EReal) : EReal :=
  Scalar.select (Ideal.cmp .ogt cf 0) (Ideal.div tot (max cf 1)) tot

/-- The mean's last step with the count a signed 32-bit word. -/
def lossI (tot : EReal) (cnt : BitVec 32) : EReal :=
  Scalar.select (IntOp.cmpi .sgt cnt 0#32) (Ideal.div tot (((IntOp.maxsi cnt 1#32).toInt : ℝ) : EReal)) tot

/-- For a count below `2^31` the two are one extended real. -/
theorem loss_bridge (tot : EReal) {N : ℕ} (hN : N < 2 ^ 31) :
    lossI tot (BitVec.ofNat 32 N) = lossF tot (((N : ℕ) : ℝ) : EReal) := by
  have hI : (BitVec.ofNat 32 N).toInt = (N : ℤ) := Words.toInt_ofNat_of_lt hN
  unfold lossI lossF
  rcases Nat.eq_zero_or_pos N with h0 | hpos
  · subst h0
    have e1 : IntOp.cmpi .sgt (BitVec.ofNat 32 0) 0#32 = 0#1 := by decide
    have e2 : Ideal.cmp .ogt (((0 : ℕ) : ℝ) : EReal) 0 = 0#1 := by simp [Ideal.cmp]
    rw [e1, e2]
    rfl
  · have e1 : IntOp.cmpi .sgt (BitVec.ofNat 32 N) 0#32 = 1#1 := by
      show BitVec.ofBool ((0#32).slt (BitVec.ofNat 32 N)) = 1#1
      have : (0#32).slt (BitVec.ofNat 32 N) = true := by
        rw [BitVec.slt, hI]; simpa using hpos
      rw [this]; rfl
    have e2 : Ideal.cmp .ogt (((N : ℕ) : ℝ) : EReal) 0 = 1#1 := by
      have : (0 : EReal) < (((N : ℕ) : ℝ) : EReal) := by exact_mod_cast hpos
      simp [Ideal.cmp, hpos]
    have e3 : (IntOp.maxsi (BitVec.ofNat 32 N) 1#32).toInt = (N : ℤ) := by
      unfold IntOp.maxsi
      by_cases h1 : (1#32).slt (BitVec.ofNat 32 N) = true
      · rw [if_pos h1, hI]
      · rw [if_neg h1]
        have h1' : ¬ ((1 : ℤ) < (N : ℤ)) := by
          intro hlt; apply h1; rw [BitVec.slt, hI]; simpa using hlt
        have : N = 1 := by omega
        subst this; decide
    have e4 : max (((N : ℕ) : ℝ) : EReal) 1 = (((N : ℕ) : ℝ) : EReal) := by
      apply max_eq_left
      have : (1 : ℝ) ≤ ((N : ℕ) : ℝ) := by exact_mod_cast hpos
      exact_mod_cast this
    rw [e1, e2, e3, e4, Int.cast_natCast]

end Cert.Lib.MaskedMean

end
-- ==== Proof.LibKlRows.lean ====
/-
  The row law of a forward Kullback–Leibler term, over the extended reals.

  For a row of student scores `s` and a row of teacher scores `t` (both indexed by the same finite set of classes),
  write `top x` for the largest entry of a row, `sumExp x` for the sum of `exp (x c - top x)` over the classes and
  `logp x v = (x v - top x) - log (sumExp x)` for the log-probability of class `v`.  One program forms the teacher's
  probability of class `v` as `exp (t v - top t) * (1 / sumExp t)`, the other as `exp (logp t v)`.  When the teacher's
  scores are real numbers these are the same number: `top t` is then real, `sumExp t` is a real number that is at
  least the one term `exp 0 = 1 > 0`, and `exp (a - log L) = exp a / L` for real `a` and `L > 0`.  Nothing is asked of
  the student's scores: they enter both programs through the same expression.

  A weight that is `0` or `1` can be applied to a value by a product or by keeping the value where the weight is
  positive and putting `0` elsewhere: `x * 0 = 0` and `x * 1 = x` on every extended real.
-/
import Mathlib.Data.Real.Basic
import Idealize.ShloMosaic.PureOps.Ideal
import Idealize.ShloMosaic.PureOps.Ideal.Laws
import proofs.«109211_j5231270166835_2_alg».proof.Proof.LibMaskedMean

noncomputable section

open scoped BigOperators

namespace Cert.KlRows

open Idealize.ShloMosaic

/-- The four f32 words the two programs use: `0`, `1`, `-∞` and `+∞`. -/
abbrev zeroW : EReal := Ideal.ofBits .f32 0x00000000#32
abbrev oneW : EReal := Ideal.ofBits .f32 0x3F800000#32
abbrev negInfW : EReal := Ideal.ofBits .f32 0xFF800000#32
abbrev infW : EReal := Ideal.ofBits .f32 0x7F800000#32

theorem zeroW_eq : zeroW = 0 := by simp [Ideal.ofBits, Ideal.ieee]
theorem oneW_eq : oneW = ((1 : ℝ) : EReal) := by
  -- sign 0, exponent field 127, fraction 0: the value is 2^23 * 2^(127 - 127 - 23) = 1
  simp [Ideal.ofBits, Ideal.ieee]
  rw [← EReal.coe_mul]
  norm_num
theorem negInfW_eq : negInfW = (⊥ : EReal) := by simp [Ideal.ofBits, Ideal.ieee]
/-- A maximum against `-∞` is the other operand. -/
theorem max_negInfW (y : EReal) : max negInfW y = y := by
  rw [negInfW_eq]; exact max_eq_right bot_le

variable {k : ℕ}

/-- The largest entry of a row (the fold of `max` from `-∞`). -/
def top (x : Fin k → EReal) : EReal := (Finset.univ : Finset (Fin k)).fold max negInfW x

/-- The sum over the classes of `exp (x c - top x)`. -/
def sumExp (x : Fin k → EReal) : EReal := ∑ c : Fin k, Ideal.exp (x c - top x)

/-- The log-probability of class `v`: `(x v - top x) - log (sumExp x)`. -/
def logp (x : Fin k → EReal) (v : Fin k) : EReal := (x v - top x) - Ideal.log (sumExp x)

/-- One class's term with the teacher's probability formed as `exp (t v - top t) * (1 / sumExp t)`;
    a class whose student score is infinite contributes `0`. -/
def termK (s t : Fin k → EReal) (v : Fin k) : EReal :=
  Scalar.select (Ideal.cmp .oeq (max (s v) (-(s v))) infW) zeroW
    ((Ideal.exp (t v - top t) * Ideal.div oneW (sumExp t)) * (logp t v - logp s v))

/-- One class's term with the teacher's probability formed as `exp (logp t v)`. -/
def termR (s t : Fin k → EReal) (v : Fin k) : EReal :=
  Scalar.select (Ideal.cmp .oeq (max (s v) (-(s v))) infW) zeroW
    (Ideal.exp (logp t v) * (logp t v - logp s v))

/-- On a row of real teacher scores the two spellings of a class's term are the same extended real. -/
theorem termK_eq_termR (s t : Fin k → EReal) (ht : ∀ c, ∃ r : ℝ, t c = (r : EReal)) (v : Fin k) :
    termK s t v = termR s t v := by
  choose r hr using ht
  -- the largest teacher score is a real number
  have htop_ne_top : top t ≠ ⊤ := by
    unfold top
    rw [negInfW_eq]
    exact Cert.Lib.MaskedMean.fold_max_ne_top _ _ (fun c _ => by rw [hr c]; exact EReal.coe_ne_top _)
  have htop_ne_bot : top t ≠ ⊥ := by
    unfold top
    rw [negInfW_eq]
    exact Cert.Lib.MaskedMean.fold_max_ne_bot _ _ v (Finset.mem_univ v) (by rw [hr v]; exact EReal.coe_ne_bot _)
  obtain ⟨M, hM⟩ : ∃ M : ℝ, top t = (M : EReal) :=
    ⟨(top t).toReal, (EReal.coe_toReal htop_ne_top htop_ne_bot).symm⟩
  -- every shifted exponential is the coercion of a real exponential
  have hexp : ∀ c, Ideal.exp (t c - top t) = ((Real.exp (r c - M) : ℝ) : EReal) := fun c => by
    rw [hr c, hM, ← EReal.coe_sub, Ideal.exp_coe]
  -- so their sum is the coercion of a positive real
  obtain ⟨L, hLdef⟩ : ∃ L : ℝ, L = ∑ c : Fin k, Real.exp (r c - M) := ⟨_, rfl⟩
  have hsum : sumExp t = (L : EReal) := by
    unfold sumExp
    rw [Finset.sum_congr rfl fun c _ => hexp c, Cert.Lib.MaskedMean.coe_sum, hLdef]
  have hL : 0 < L := by
    rw [hLdef]
    exact Finset.sum_pos (fun c _ => Real.exp_pos _) ⟨v, Finset.mem_univ v⟩
  -- the teacher's probability of class v, in both spellings
  have hlogp : logp t v = (((r v - M) - Real.log L : ℝ) : EReal) := by
    unfold logp
    rw [hsum, Ideal.log_coe, if_neg (not_le.mpr hL), hr v, hM, ← EReal.coe_sub, ← EReal.coe_sub]
  have hprob : Ideal.exp (t v - top t) * Ideal.div oneW (sumExp t) = Ideal.exp (logp t v) := by
    rw [hlogp, Ideal.exp_coe, hexp v, hsum, Ideal.div_coe (ne_of_gt hL), oneW_eq, ← EReal.coe_mul, ← EReal.coe_mul]
    refine congrArg Real.toEReal ?_
    rw [Real.exp_sub (r v - M) (Real.log L), Real.exp_log hL, one_mul, mul_one_div]
  unfold termK termR
  rw [hprob]

/-- Keeping `x` where a 0/1 weight is positive and putting `0` elsewhere is the product of `x` with the weight. -/
theorem select_flag (b : BitVec 1) (x : EReal) :
    Scalar.select (Ideal.cmp .ogt (((b.toNat : ℝ)) : EReal) zeroW) x zeroW = x * (((b.toNat : ℝ)) : EReal) := by
  rcases BitVec.eq_zero_or_eq_one b with h | h <;> subst h
  · -- weight 0: the comparison 0 < 0 fails, and x * 0 = 0
    simp [Scalar.select, Ideal.cmp, zeroW_eq]
  · -- weight 1: the comparison 0 < 1 holds, and x * 1 = x
    simp [Scalar.select, Ideal.cmp, zeroW_eq]

/-- Where the weight is the zero word itself nothing is kept. -/
theorem select_zeroW (x : EReal) : Scalar.select (Ideal.cmp .ogt zeroW zeroW) x zeroW = 0 := by
  simp [Scalar.select, Ideal.cmp, zeroW_eq]

end Cert.KlRows

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.LibUnitAxes.lean ====
/-
  Arrays of three axes with unit axes added, dropped or spread, and sums along one of their axes, read at an entry,
  for any sizes.

  Row-major order fixes what each re-shaping does to an entry: a unit axis put in or taken out moves nothing, so the
  entry at `(i, j)` of an `a × b` table is the entry `(i, 0, j)` of the same table kept as `a × 1 × b`; a table whose
  middle (or first, or last) axis has one entry, spread along that axis, shows that one entry at every position; the
  first two axes of an `a × b × c` array folded into one put entry `(i, j, d)` at row `i * b + j`; and swapping the
  first two axes swaps the first two coordinates. A sum along one axis of a three-axis array is the sum over that
  axis's coordinate with the other two held.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib.UnitAxes

open Idealize.ShloMosaic Idealize.ShloMosaic.ValueIdx

variable {α : Type}

/-! ## Unit axes put in and taken out -/

/-- A `1 × 1 × a` array flattened to a length-`a` vector reads, at `i`, the array's entry `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `a × b` table kept as `a × b × 1` reads, at `(i, j, u)`, the table at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `a × b` table kept as `a × 1 × b` reads, at `(i, u, j)`, the table at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first two axes of an `a × b × c` array folded into one of `n = a * b` rows: row `i * b + j` at `d` is the array
    at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- And back: an `n × c` table of `n = a * b` rows unfolded to `a × b × c` reads, at `(i, j, d)`, row `i * b + j` at `d`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-! ## One entry spread along an axis -/

/-- An `a × 1` column spread to `a × b` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `a × b × 1` array spread to `a × b × c` reads, at `(i, j, d)`, the entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `a × 1 × c` array spread to `a × b × c` reads, at `(i, j, d)`, the entry `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `1 × b × c` array spread to `a × b × c` reads, at `(i, j, d)`, the entry `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-! ## The first two axes swapped -/

/-- An `a × b × c` array with its first two axes swapped reads, at `(j, i, d)`, the array at `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun ax => match ax with | ⟨0, _⟩ => rfl | ⟨1, _⟩ => rfl | ⟨2, _⟩ => rfl

/-! ## Sums along one axis -/

/-- The index of an `a × b × c` array over `(i, d)` with the middle coordinate `k` put back. -/
theorem lift_mid {a b c : ℕ} (h : (⟨3, ![a, b, c]⟩ : Shape).Reduces [1] ⟨2, ![a, c]⟩) (i : Fin a) (d : Fin c) (k : Fin b) :
    h.lift (ix2 i d) k = ix3 i k d := by
  funext ax; apply Fin.ext
  match ax with
  | ⟨0, _⟩ => rfl
  | ⟨1, _⟩ => rfl
  | ⟨2, _⟩ => rfl

/-- The index of an `a × b × c` array over `(j, d)` with the first coordinate `k` put back. -/
theorem lift_first {a b c : ℕ} (h : (⟨3, ![a, b, c]⟩ : Shape).Reduces [0] ⟨2, ![b, c]⟩) (j : Fin b) (d : Fin c) (k : Fin a) :
    h.lift (ix2 j d) k = ix3 k j d := by
  funext ax; apply Fin.ext
  match ax with
  | ⟨0, _⟩ => rfl
  | ⟨1, _⟩ => rfl
  | ⟨2, _⟩ => rfl

/-- The index of an `a × c` table over `d` with the row `k` put back. -/
theorem lift_rows {a c : ℕ} (h : (⟨2, ![a, c]⟩ : Shape).Reduces [0] ⟨1, ![c]⟩) (d : Fin c) (k : Fin a) :
    h.lift (ix1 d) k = ix2 k d := by
  funext ax; apply Fin.ext
  match ax with
  | ⟨0, _⟩ => rfl
  | ⟨1, _⟩ => rfl

/-- An f32 sum along the middle axis of an `a × b × c` array, from the zero word, is at `(i, d)` the sum over `k` of
    the entries `(i, k, d)`. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (d : Fin c) :
    multiReduction .add [1] ⟨2, ![a, c]⟩ src 0x00000000#32 h hφ hacc (ix2 i d) = ∑ k : Fin b, src (ix3 i k d) :=
  (Ideal.multiReduction_add_single src 0x00000000#32 h hφ hacc (ix2 i d)).trans
    (Finset.sum_congr rfl fun k _ => congrArg src (lift_mid h i d k))

/-- An f32 sum along the first axis of an `a × b × c` array, from the zero word, is at `(j, d)` the sum over `k` of
    the entries `(k, j, d)`. -/
theorem sumFirst_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (d : Fin c) :
    multiReduction .add [0] ⟨2, ![b, c]⟩ src 0x00000000#32 h hφ hacc (ix2 j d) = ∑ k : Fin a, src (ix3 k j d) :=
  (Ideal.multiReduction_add_single src 0x00000000#32 h hφ hacc (ix2 j d)).trans
    (Finset.sum_congr rfl fun k _ => congrArg src (lift_first h j d k))

/-- An f32 sum down the rows of an `a × c` table, from the zero word, is at `d` the sum over `k` of the entries `(k, d)`. -/
theorem sumRows_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (d : Fin c) :
    multiReduction .add [0] ⟨1, ![c]⟩ src 0x00000000#32 h hφ hacc (ix1 d) = ∑ k : Fin a, src (ix2 k d) :=
  (Ideal.multiReduction_add_single src 0x00000000#32 h hφ hacc (ix1 d)).trans
    (Finset.sum_congr rfl fun k _ => congrArg src (lift_rows h d k))

end Cert.Lib.UnitAxes

end
-- ==== Proof.LibKlBlock.lean ====
/-
  A block of rows of scores in a vector program's spelling, read at an entry over the extended reals, for any sizes.

  For an `n × k` array of scores a body takes every row's largest entry (a lane maximum from the word of -∞) and every
  row's sum of `exp (score - largest)` (a lane sum from the zero word), each kept as an `n × 1` column and spread
  back along the row; from them it forms the shifted scores, the log-probabilities `(x - top) - log (sumExp)`, the
  probabilities `exp (x - top) * (1 / sumExp)`, and, for a student block `S` and a teacher block `T`, every class's
  forward Kullback–Leibler term (zero where the student's score is infinite), the rows' sums of terms, and those sums
  kept where a column of weights is positive.  Each lemma reads one of these arrays at an entry `(r, v)` as the
  corresponding function (`top`, `sumExp`, `logp`, `termK` of the row law's module) of row `r` of the block.
-/
import proofs.«109211_j5231270166835_2_alg».proof.Proof.LibKlRows
import proofs.«109211_j5231270166835_2_alg».proof.Proof.LibRowMax
import proofs.«109211_j5231270166835_2_alg».proof.Proof.LibRowOps
import proofs.«109211_j5231270166835_2_alg».proof.Proof.LibKeepdims
import proofs.«109211_j5231270166835_2_alg».proof.Proof.LibUnitAxes
import Idealize.ShloMosaic.Lib.Pipeline.Value
import Idealize.ShloMosaic.Lib.ValueIdx
import Idealize.ShloMosaic.PureOps.Ideal.Laws

noncomputable section

open scoped BigOperators

namespace Cert.KlBlock

open Idealize.ShloMosaic Idealize.ShloMosaic.ValueIdx Cert.KlRows

/-! ## An `n × k` block of scores, any sizes -/

section Generic

variable {n k : ℕ}
variable (hred : (⟨2, ![n, k]⟩ : Shape).Reduces [1] ⟨1, ![n]⟩)
  (hcast : (⟨1, ![n]⟩ : Shape).ShapeCasts ⟨2, ![n, 1]⟩)
  (hb : (⟨2, ![n, 1]⟩ : Shape).Broadcasts ⟨2, ![n, k]⟩)

/-- Row `r` of a block, one entry per class. -/
def rowOf (X : FVec Ideal ⟨2, ![n, k]⟩ .f32) (r : Fin n) : Fin k → EReal := fun c => X (ix2 r c)

/-- The rows' largest entries, kept as a column. -/
def colTop (X : FVec Ideal ⟨2, ![n, k]⟩ .f32) : FVec Ideal ⟨2, ![n, 1]⟩ .f32 :=
  shapeCast ⟨2, ![n, 1]⟩ (multiReduction .maximumf [1] ⟨1, ![n]⟩ X 0xFF800000#32 hred (.inl rfl) rfl) hcast

theorem colTop_apply (X : FVec Ideal ⟨2, ![n, k]⟩ .f32) (r : Fin n) (u : Fin 1) :
    colTop hred hcast X (ix2 r u) = top (rowOf X r) :=
  (Cert.Lib.Keepdims.shapeCast_a_a1_apply _ hcast r u).trans (Cert.Lib.RowMax.laneMax_apply X hred (.inl rfl) rfl r)

/-- Every score less its row's largest. -/
def shift (X : FVec Ideal ⟨2, ![n, k]⟩ .f32) : FVec Ideal ⟨2, ![n, k]⟩ .f32 :=
  subf X (broadcastTo ⟨2, ![n, k]⟩ (colTop hred hcast X) hb)

theorem shift_apply (X : FVec Ideal ⟨2, ![n, k]⟩ .f32) (r : Fin n) (v : Fin k) :
    shift hred hcast hb X (ix2 r v) = X (ix2 r v) - top (rowOf X r) := by
  show X (ix2 r v) - broadcastTo ⟨2, ![n, k]⟩ (colTop hred hcast X) hb (ix2 r v) = _
  rw [Cert.Lib.RowOps.broadcastTo_a1_ab_apply, colTop_apply]

/-- The rows' sums of exponentials, kept as a column. -/
def colSum (X : FVec Ideal ⟨2, ![n, k]⟩ .f32) : FVec Ideal ⟨2, ![n, 1]⟩ .f32 :=
  shapeCast ⟨2, ![n, 1]⟩ (multiReduction .add [1] ⟨1, ![n]⟩ (exp (shift hred hcast hb X)) 0x00000000#32 hred (.inl rfl) rfl) hcast

theorem colSum_apply (X : FVec Ideal ⟨2, ![n, k]⟩ .f32) (r : Fin n) (u : Fin 1) :
    colSum hred hcast hb X (ix2 r u) = sumExp (rowOf X r) := by
  refine (Cert.Lib.Keepdims.shapeCast_a_a1_apply _ hcast r u).trans ?_
  refine (Cert.Lib.RowOps.laneSum_apply _ hred (.inl rfl) rfl r).trans ?_
  unfold sumExp
  refine Finset.sum_congr rfl fun c _ => ?_
  show Ideal.exp (shift hred hcast hb X (ix2 r c)) = _
  rw [shift_apply]
  rfl

/-- The log-probabilities. -/
def logpV (X : FVec Ideal ⟨2, ![n, k]⟩ .f32) : FVec Ideal ⟨2, ![n, k]⟩ .f32 :=
  subf (shift hred hcast hb X) (broadcastTo ⟨2, ![n, k]⟩ (log (colSum hred hcast hb X)) hb)

theorem logpV_apply (X : FVec Ideal ⟨2, ![n, k]⟩ .f32) (r : Fin n) (v : Fin k) :
    logpV hred hcast hb X (ix2 r v) = logp (rowOf X r) v := by
  show shift hred hcast hb X (ix2 r v) - broadcastTo ⟨2, ![n, k]⟩ (log (colSum hred hcast hb X)) hb (ix2 r v) = _
  rw [Cert.Lib.RowOps.broadcastTo_a1_ab_apply, shift_apply]
  show _ - Ideal.log (colSum hred hcast hb X (ix2 r (0 : Fin 1))) = _
  rw [colSum_apply]
  rfl

/-- The teacher's probabilities: the exponentials times the reciprocal of the row's sum, spread along the row. -/
def probV (T : FVec Ideal ⟨2, ![n, k]⟩ .f32) : FVec Ideal ⟨2, ![n, k]⟩ .f32 :=
  mulf (exp (shift hred hcast hb T))
    (broadcastTo ⟨2, ![n, k]⟩ (divf (broadcast ⟨2, ![n, 1]⟩ (Scalar.ofBits .f32 0x3F800000#32)) (colSum hred hcast hb T)) hb)

theorem probV_apply (T : FVec Ideal ⟨2, ![n, k]⟩ .f32) (r : Fin n) (v : Fin k) :
    probV hred hcast hb T (ix2 r v)
      = Ideal.exp (rowOf T r v - top (rowOf T r)) * Ideal.div oneW (sumExp (rowOf T r)) := by
  show Ideal.exp (shift hred hcast hb T (ix2 r v))
      * broadcastTo ⟨2, ![n, k]⟩ (divf (broadcast ⟨2, ![n, 1]⟩ (Scalar.ofBits .f32 0x3F800000#32)) (colSum hred hcast hb T)) hb (ix2 r v) = _
  rw [Cert.Lib.RowOps.broadcastTo_a1_ab_apply, shift_apply]
  show _ * Ideal.div oneW (colSum hred hcast hb T (ix2 r (0 : Fin 1))) = _
  rw [colSum_apply]
  rfl

/-- Every class's term, zero where the student's score is infinite. -/
def termV (S T : FVec Ideal ⟨2, ![n, k]⟩ .f32) : FVec Ideal ⟨2, ![n, k]⟩ .f32 :=
  select (cmpf .oeq (absf S) (broadcast ⟨2, ![n, k]⟩ (Scalar.ofBits .f32 0x7F800000#32)))
    (broadcast ⟨2, ![n, k]⟩ (Scalar.ofBits .f32 0x00000000#32))
    (mulf (probV hred hcast hb T) (subf (logpV hred hcast hb T) (logpV hred hcast hb S)))

theorem termV_apply (S T : FVec Ideal ⟨2, ![n, k]⟩ .f32) (r : Fin n) (v : Fin k) :
    termV hred hcast hb S T (ix2 r v) = termK (rowOf S r) (rowOf T r) v := by
  show Scalar.select (Ideal.cmp .oeq (max (S (ix2 r v)) (-(S (ix2 r v)))) infW) zeroW
      (probV hred hcast hb T (ix2 r v) * (logpV hred hcast hb T (ix2 r v) - logpV hred hcast hb S (ix2 r v))) = _
  rw [probV_apply, logpV_apply, logpV_apply]
  rfl

/-- The rows' sums of terms, kept as a column. -/
def rowSums (S T : FVec Ideal ⟨2, ![n, k]⟩ .f32) : FVec Ideal ⟨2, ![n, 1]⟩ .f32 :=
  shapeCast ⟨2, ![n, 1]⟩ (multiReduction .add [1] ⟨1, ![n]⟩ (termV hred hcast hb S T) 0x00000000#32 hred (.inl rfl) rfl) hcast

theorem rowSums_apply (S T : FVec Ideal ⟨2, ![n, k]⟩ .f32) (r : Fin n) (u : Fin 1) :
    rowSums hred hcast hb S T (ix2 r u) = ∑ v : Fin k, termK (rowOf S r) (rowOf T r) v := by
  refine (Cert.Lib.Keepdims.shapeCast_a_a1_apply _ hcast r u).trans ?_
  refine (Cert.Lib.RowOps.laneSum_apply _ hred (.inl rfl) rfl r).trans ?_
  exact Finset.sum_congr rfl fun v _ => termV_apply hred hcast hb S T r v

/-- The row sums kept where the row's weight is positive. -/
def keptV (M : FVec Ideal ⟨2, ![n, 1]⟩ .f32) (S T : FVec Ideal ⟨2, ![n, k]⟩ .f32) : FVec Ideal ⟨2, ![n, 1]⟩ .f32 :=
  select (cmpf .ogt M (broadcast ⟨2, ![n, 1]⟩ (Scalar.ofBits .f32 0x00000000#32))) (rowSums hred hcast hb S T)
    (broadcast ⟨2, ![n, 1]⟩ (Scalar.ofBits .f32 0x00000000#32))

theorem keptV_apply (M : FVec Ideal ⟨2, ![n, 1]⟩ .f32) (S T : FVec Ideal ⟨2, ![n, k]⟩ .f32) (r : Fin n) (u : Fin 1) :
    keptV hred hcast hb M S T (ix2 r u)
      = Scalar.select (Ideal.cmp .ogt (M (ix2 r u)) zeroW) (∑ v : Fin k, termK (rowOf S r) (rowOf T r) v) zeroW := by
  show Scalar.select (Ideal.cmp .ogt (M (ix2 r u)) zeroW) (rowSums hred hcast hb S T (ix2 r u)) zeroW = _
  rw [rowSums_apply]

end Generic

end Cert.KlBlock

end
-- ==== Proof.KStep.lean ====
/-
  The kernel's `step` at its one entry, over the extended reals.

  `step` of a point's three blocks and of the total so far is the total plus the sum, over the point's 32 rows, of
  the row's divergence (the sum over the 32000 classes of `termK` of the student's and the teacher's row) where the
  row's weight is positive and of zero elsewhere.  The blocks carry a leading axis of extent one, which the body drops
  before it computes and puts back, twice, around the final sum.
-/
import proofs.«109211_j5231270166835_2_alg».proof.Proof.KBody
import proofs.«109211_j5231270166835_2_alg».proof.Proof.LibKlBlock

noncomputable section

open scoped BigOperators

namespace Cert.KernelIdeal.StepValue

open Idealize.ShloMosaic Idealize.ShloMosaic.ValueIdx Cert.KlRows Cert.KlBlock
open Cert.KernelIdeal Cert.KernelIdeal.Gen Cert.KernelIdeal.Body

/-- A `1 × 1` cell kept as a `1 × 1 × 1` block reads the cell's entry. -/
theorem shapeCast_11_111_apply {α : Type} (x : (⟨2, ![1, 1]⟩ : Shape).Idx → α)
    (h : (⟨2, ![1, 1]⟩ : Shape).ShapeCasts ⟨3, ![1, 1, 1]⟩) (j : (⟨3, ![1, 1, 1]⟩ : Shape).Idx) :
    shapeCast ⟨3, ![1, 1, 1]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨3, ![1, 1, 1]⟩ : Shape).rowMajor j).isLt
  have hn : (⟨3, ![1, 1, 1]⟩ : Shape).numel = 1 := rfl
  omega

/-- The 32 kept row sums of a point, as the body forms them from the three blocks. -/
abbrev keptOf (x0 x1 : Vec Ideal S1x32x32000 .f32) (x2 : Vec Ideal S1x32x1 .f32) : FVec Ideal S32x1 .f32 :=
  keptV reduces_S32x32000_S32 shapeCasts_S32_S32x1 broadcasts_S32x1_S32x32000 (k0_pay4 (F := Ideal) x2) (k0_pay3 (F := Ideal) x0)
    (shapeCast S32x32000 x1 shapeCasts_S1x32x32000_S32x32000)

/-- `step` is the total so far plus the column sum of the kept row sums, the unit axes put back. -/
theorem step_eq (x0 x1 : Vec Ideal S1x32x32000 .f32) (x2 : Vec Ideal S1x32x1 .f32) (acc : Vec Ideal S1x1x1 .f32) :
    step (F := Ideal) x0 x1 x2 acc
      = addf (shapeCast S1x1x1 acc shapeCasts_S1x1x1_S1x1x1)
          (shapeCast S1x1x1 (shapeCast S1x1 (multiReduction .add [0] S1 (keptOf x0 x1 x2) 0x00000000#32 reduces_S32x1_S1 (.inl rfl) rfl)
            shapeCasts_S1_S1x1) shapeCasts_S1x1_S1x1x1) := rfl

/-- Row `r` of a block with its leading unit axis dropped is row `(0, r)` of the block. -/
theorem rowOf_drop (x : Vec Ideal S1x32x32000 .f32) (r : Fin 32) :
    rowOf (shapeCast S32x32000 x shapeCasts_S1x32x32000_S32x32000) r = fun c => x (ix3 (0 : Fin 1) r c) := by
  funext c
  exact Cert.Lib.UnitAxes.shapeCast_abc_nc_apply x shapeCasts_S1x32x32000_S32x32000 (0 : Fin 1) r c r (by simp)

/-- The weight column with its leading unit axis dropped. -/
theorem weight_drop (x2 : Vec Ideal S1x32x1 .f32) (r : Fin 32) (u : Fin 1) :
    k0_pay4 (F := Ideal) x2 (ix2 r u) = x2 (ix3 (0 : Fin 1) r u) :=
  Cert.Lib.UnitAxes.shapeCast_abc_nc_apply x2 shapeCasts_S1x32x1_S32x1 (0 : Fin 1) r u r (by simp)

/-- THE POINT'S VALUE: the total so far plus the 32 rows' divergences, each kept where its weight is positive. -/
theorem step_apply (x0 x1 : Vec Ideal S1x32x32000 .f32) (x2 : Vec Ideal S1x32x1 .f32) (acc : Vec Ideal S1x1x1 .f32)
    (j : S1x1x1.Idx) :
    step (F := Ideal) x0 x1 x2 acc j
      = acc j + ∑ r : Fin 32, Scalar.select (Ideal.cmp .ogt (x2 (ix3 (0 : Fin 1) r (0 : Fin 1))) zeroW)
          (∑ v : Fin 32000, termK (fun c => x0 (ix3 (0 : Fin 1) r c)) (fun c => x1 (ix3 (0 : Fin 1) r c)) v) zeroW := by
  rw [step_eq]
  show shapeCast S1x1x1 acc shapeCasts_S1x1x1_S1x1x1 j + shapeCast S1x1x1 _ shapeCasts_S1x1_S1x1x1 j = _
  rw [shapeCast_self, shapeCast_11_111_apply, Cert.Lib.Keepdims.shapeCast_1_11_apply,
    Cert.Lib.Keepdims.colSum_f32_apply]
  congr 1
  refine Finset.sum_congr rfl fun r _ => ?_
  refine (keptV_apply reduces_S32x32000_S32 shapeCasts_S32_S32x1 broadcasts_S32x1_S32x32000 (k0_pay4 (F := Ideal) x2)
    (k0_pay3 (F := Ideal) x0) (shapeCast S32x32000 x1 shapeCasts_S1x32x32000_S32x32000) r (0 : Fin 1)).trans ?_
  rw [weight_drop, show k0_pay3 (F := Ideal) x0 = shapeCast S32x32000 x0 shapeCasts_S1x32x32000_S32x32000 from rfl,
    rowOf_drop, rowOf_drop]

end Cert.KernelIdeal.StepValue

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.LibTileSums.lean ====
/-
  Sums over a three-axis array cut into tiles, and a running sum that restarts every `p` steps.

  An array with extents `(a * a') x (b * b') x c` is the disjoint union of its tiles: tile `(h, s, r)` holds the entries
  `(h * a' + s, r * b' + ρ, l)`. So a sum over all entries is the fivefold sum over `h, s, r, ρ, l`; only the order and grouping
  of the terms change, which any commutative monoid allows.
  A sequence `g` that is `f n` at every multiple `n` of `p` and `g (n - 1) + f n` elsewhere is the sum of `f` from the last
  multiple of `p` up to `n`; at the end of a period that is the sum over the whole period.
-/
import Mathlib.Algebra.BigOperators.Fin
import Mathlib.Algebra.BigOperators.Intervals
import Mathlib.Logic.Equiv.Fin.Basic
import Idealize.ShloMosaic.Lib.ValueIdx
import proofs.«109211_j5231270166835_2_alg».proof.Proof.LibBlockSum

noncomputable section

open scoped BigOperators

namespace Cert.Lib.TileSums

open Idealize.ShloMosaic Idealize.ShloMosaic.ValueIdx Cert.Lib.BlockSum

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {A : Type*} [AddCommMonoid A] {n0 n1 n2 : ℕ} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over an `(a * a') x (b * b') x c` array is the sum over its tiles of the sum over each tile's entries. -/
theorem sum_tiles {A : Type*} [AddCommMonoid A] {a a' b b' c N0 N1 : ℕ} (h0 : a * a' = N0) (h1 : b * b' = N1)
    (f : (⟨3, ![N0, N1, c]⟩ : Shape).Idx → A) :
    ∑ i, f i = ∑ h : Fin a, ∑ s : Fin a', ∑ r : Fin b, ∑ ρ : Fin b', ∑ l : Fin c,
      f (ix3 ⟨h.val * a' + s.val, blockPos_lt h0 h s⟩ ⟨r.val * b' + ρ.val, blockPos_lt h1 r ρ⟩ l) := by
  rw [sum_idx3, sum_fin_blocks h0]
  refine Finset.sum_congr rfl fun h _ => Finset.sum_congr rfl fun s _ => ?_
  rw [sum_fin_blocks h1]

/-- A running sum restarted at every multiple of `p` is, below a bound `N` up to which the two rules hold, the sum since
    the last multiple of `p`. -/
theorem restarting_sum {A : Type*} [AddCommMonoid A] (p N : ℕ) (g f : ℕ → A)
    (h0 : ∀ n, n < N → n % p = 0 → g n = f n) (h1 : ∀ n, n < N → n % p ≠ 0 → g n = g (n - 1) + f n) :
    ∀ n, n < N → g n = ∑ k ∈ Finset.Icc (p * (n / p)) n, f k := by
  intro n
  induction n with
  | zero => intro hN; rw [h0 0 hN (Nat.zero_mod p)]; simp
  | succ n ih =>
    intro hN
    by_cases hm : (n + 1) % p = 0
    · rw [h0 _ hN hm, Nat.mul_div_cancel' (Nat.dvd_of_mod_eq_zero hm)]; simp
    · have hd : (n + 1) / p = n / p := by
        rw [Nat.succ_div, if_neg (fun hdvd => hm (Nat.mod_eq_zero_of_dvd hdvd))]; rfl
      have hle : p * (n / p) ≤ n + 1 := le_trans (Nat.mul_div_le n p) (Nat.le_succ n)
      rw [h1 _ hN hm, hd, Finset.sum_Icc_succ_top hle, Nat.add_sub_cancel, ih (Nat.lt_of_succ_lt hN)]

/-- The sum over one whole period `s, s + 1, …, s + p - 1`, as a sum over `Fin p`. -/
theorem sum_period {A : Type*} [AddCommMonoid A] (p s : ℕ) (hp : 0 < p) (f : ℕ → A) :
    ∑ k ∈ Finset.Icc s (s + (p - 1)), f k = ∑ j : Fin p, f (s + j.val) := by
  have e : Finset.Icc s (s + (p - 1)) = Finset.Ico s (s + p) := by
    ext k; simp only [Finset.mem_Icc, Finset.mem_Ico]; omega
  rw [e, Finset.sum_Ico_eq_sum_range, Nat.add_sub_cancel_left, Finset.sum_range]

end Cert.Lib.TileSums

end
-- ==== Proof.KAcc.lean ====
/-
  The batch totals the kernel's output array ends with.

  Point `t = 64 b + s` of the grid adds `part t` — the weighted sum of the divergences of its 32 rows — to the total of
  batch `b`, which is reset to zero at `s = 0`.  So the total after point `t` is the sum of `part` from the last multiple
  of 64 up to `t`, and when the batch's block is written back, after `s = 63`, it holds the sum of the batch's 64 parts.
-/
import proofs.«109211_j5231270166835_2_alg».proof.Proof.KStep
import proofs.«109211_j5231270166835_2_alg».proof.Proof.LibTileSums

noncomputable section

open scoped BigOperators

namespace Cert.KernelIdeal.AccValue

open Idealize.ShloMosaic Idealize.ShloMosaic.TcCoe Idealize.SL.Sem Idealize.ShloMosaic.ValueIdx
open Idealize.ShloMosaic.Pipeline (Dat)
open Cert.KlRows Cert.KernelIdeal Cert.KernelIdeal.Gen Cert.KernelIdeal.Body Cert.KernelIdeal.StepValue

variable (m : (ℓ : Loc nD τ sig) → Buf (Elt Ideal) ℓ)

/-- What point `t` adds to its batch's total: the 32 rows' divergences, each kept where its weight is positive. -/
def part (c : Dev nD) (t : Fin cfg0.N) : EReal :=
  ∑ r : Fin 32, Scalar.select
    (Ideal.cmp .ogt ((iblk m c 2 t : Vec Ideal S1x32x1 .f32) (ix3 (0 : Fin 1) r (0 : Fin 1))) zeroW)
    (∑ v : Fin 32000, termK (fun c' => (iblk m c 0 t : Vec Ideal S1x32x32000 .f32) (ix3 (0 : Fin 1) r c'))
      (fun c' => (iblk m c 1 t : Vec Ideal S1x32x32000 .f32) (ix3 (0 : Fin 1) r c')) v) zeroW

/-- At the first point of a batch the block ends holding zero plus the point's part. -/
theorem outs_A (c : Dev nD) (t : Fin cfg0.N) (h0 : t.val % 64 = 0) (j : S1x1x1.Idx) :
    outsAt0 m c t.val t.isLt j = zeroW + part m c t := by
  rw [outsAt0_A m c t h0]
  refine (congrFun (out_A c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)) j).trans ?_
  exact step_apply (iblk m c 0 t) (iblk m c 1 t) (iblk m c 2 t) (k0_pay2 (F := Ideal)) j

/-- At any other point it ends holding what the point before left plus the point's part. -/
theorem outs_B (c : Dev nD) (t : Fin cfg0.N) (h0 : ¬t.val % 64 = 0) (j : S1x1x1.Idx) :
    outsAt0 m c t.val t.isLt j
      = outsAt0 m c (t.val - 1) (Nat.lt_of_le_of_lt (Nat.sub_le _ _) t.isLt) j + part m c t := by
  rw [outsAt0_B m c t h0]
  refine (congrFun (out_B c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt))) j).trans ?_
  exact step_apply (iblk m c 0 t) (iblk m c 1 t) (iblk m c 2 t)
    (outsAt0 m c (t.val - 1) (Nat.lt_of_le_of_lt (Nat.sub_le _ _) t.isLt)) j

/-! ## The running total is the sum of the parts since the batch began -/

theorem hN : cfg0.N = 128 := N_0

/-- The total after point `n` (its one entry), and the part of point `n`, as functions of a natural number. -/
def tot (c : Dev nD) (n : ℕ) : EReal :=
  if h : n < cfg0.N then outsAt0 m c n h (ix3 (0 : Fin 1) (0 : Fin 1) (0 : Fin 1)) else 0
def partN (c : Dev nD) (n : ℕ) : EReal := if h : n < cfg0.N then part m c ⟨n, h⟩ else 0

theorem tot_eq_sum (c : Dev nD) (n : ℕ) (hn : n < 128) :
    tot m c n = ∑ k ∈ Finset.Icc (64 * (n / 64)) n, partN m c k := by
  refine Cert.Lib.TileSums.restarting_sum 64 128 (tot m c) (partN m c) (fun n hn h0 => ?_) (fun n hn h0 => ?_) n hn
  · have h : n < cfg0.N := by rw [hN]; exact hn
    unfold tot partN
    rw [dif_pos h, dif_pos h, outs_A m c ⟨n, h⟩ h0, zeroW_eq, zero_add]
  · have h : n < cfg0.N := by rw [hN]; exact hn
    have h' : n - 1 < cfg0.N := Nat.lt_of_le_of_lt (Nat.sub_le _ _) h
    unfold tot partN
    rw [dif_pos h, dif_pos h', dif_pos h, outs_B m c ⟨n, h⟩ h0]

/-- When batch `b` ends, its total is the sum of its 64 parts. -/
theorem tot_batch (c : Dev nD) (b : ℕ) (hb : b < 2) :
    tot m c (64 * b + 63) = ∑ s : Fin 64, partN m c (64 * b + s.val) := by
  rw [tot_eq_sum m c (64 * b + 63) (by omega), show 64 * ((64 * b + 63) / 64) = 64 * b from by omega]
  exact Cert.Lib.TileSums.sum_period 64 (64 * b) (by norm_num) (partN m c)

/-! ## The output array -/

/-- What the output array ends holding: at batch `b` the sum of the batch's 64 parts. -/
def G (c : Dev nD) : S2x1x1.Idx → EReal := fun i => ∑ s : Fin 64, partN m c (64 * (i 0).val + s.val)

/-- The output window's block index, decided over the grid: the batch, and zero on the unit axes. -/
theorem idx_out : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- Every index of a one-entry block is its one index. -/
theorem idx_one (y : S1x1x1.Idx) : y = ix3 (0 : Fin 1) (0 : Fin 1) (0 : Fin 1) := by
  funext a
  apply Fin.ext
  match a with
  | ⟨0, _⟩ => have : (y 0).val < 1 := (y 0).isLt; show (y 0).val = 0; omega
  | ⟨1, _⟩ => have : (y 1).val < 1 := (y 1).isLt; show (y 1).val = 0; omega
  | ⟨2, _⟩ => have : (y 2).val < 1 := (y 2).isLt; show (y 2).val = 0; omega

/-- What a write-back writes: at the last point of a batch the block holds the batch's entry of `G`. -/
theorem flushed_eq (c : Dev nD) (t : Fin cfg0.N) (hf : (cfg0.win 3).flush t = true) :
    (dats m 0 c).flushed 3 t = ((cfg0.win 3).blk t).view.read (Elt Ideal) (G m c) := by
  have h63 : t.val % 64 = 63 := (flush0_3 t).mp hf
  have ht : t.val < 128 := lt_of_lt_of_eq t.isLt hN
  obtain ⟨e0, -, -⟩ := idx_out t
  show (cfg0.win 3).cut (grid0.coords t) ((dats m 0 c).after 3 t) = _
  rw [after0_3]
  funext y
  show outsAt0 m c t.val t.isLt y = G m c (((cfg0.win 3).blk t).view.emb y)
  have hy : (((cfg0.win 3).blk t).view.emb y (0 : Fin 3)).val = t.val / 64 := by
    show win0_3.index t (0 : Fin 3) * 1 + 1 * (y 0).val = _
    have : (y 0).val < 1 := (y 0).isLt
    omega
  unfold G
  rw [hy, idx_one y]
  have hb : t.val / 64 < 2 := by omega
  have := tot_batch m c (t.val / 64) hb
  rw [show 64 * (t.val / 64) + 63 = t.val from by omega] at this
  rw [← this]
  unfold tot
  rw [dif_pos t.isLt]

/-- An index of the array is in point `t`'s block iff each coordinate is the block's on its axis. -/
theorem mem_blk (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v8).slice (win0_3.rect t)).set ↔ _
  rw [View.set_slice_whole, Rect.mem_set_unit]
  exact Iff.rfl

/-- THE OUTPUT ARRAY after the run: each batch's total. -/
theorem final (c : Dev nD) : (dats m 0 c).arrAt 3 cfg0.N = G m c :=
  (dats m 0 c).arrAt_eq_of_cover 3 (G m c) (flushed_eq m c) fun i => by
    have h0 : (i 0).val < 2 := (i 0).isLt
    have h1 : (i 1).val < 1 := (i 1).isLt
    have h2 : (i 2).val < 1 := (i 2).isLt
    have ht : 64 * (i 0).val + 63 < cfg0.N := by rw [hN]; omega
    refine ⟨⟨64 * (i 0).val + 63, ht⟩, (flush0_3 _).mpr (by show (64 * (i 0).val + 63) % 64 = 63; omega), ?_⟩
    rw [mem_blk]
    obtain ⟨e0, e1, e2⟩ := idx_out ⟨64 * (i 0).val + 63, ht⟩
    intro a
    match a with
    | ⟨0, _⟩ => show win0_3.index _ (0 : Fin 3) * 1 ≤ (i 0).val ∧ (i 0).val < win0_3.index _ (0 : Fin 3) * 1 + 1
                rw [e0]; show (64 * (i 0).val + 63) / 64 * 1 ≤ _ ∧ _ < (64 * (i 0).val + 63) / 64 * 1 + 1; omega
    | ⟨1, _⟩ => show win0_3.index _ (1 : Fin 3) * 1 ≤ (i 1).val ∧ (i 1).val < win0_3.index _ (1 : Fin 3) * 1 + 1
                rw [e1]; omega
    | ⟨2, _⟩ => show win0_3.index _ (2 : Fin 3) * 1 ≤ (i 2).val ∧ (i 2).val < win0_3.index _ (2 : Fin 3) * 1 + 1
                rw [e2]; omega

end Cert.KernelIdeal.AccValue

end
-- ==== Proof.Spec.lean ====
/-
  The distillation loss as one number, in the two arrangements the two programs compute it in.

  `ids` holds 2 sequences of 2048 token ids, `x1` the student's and `x2` the teacher's scores of 32000 classes at
  every position.  Position `p` of sequence `b` predicts token `p + 1`: it carries the weight `1` when that token is
  not the ignored id `-100` and `0` when it is, and the last position predicts nothing.  The loss is the weighted sum of
  the positions' divergences divided by the sum of the weights.

  One program walks every sequence in 64 blocks of 32 positions, all 2048 of them, keeping a position's divergence
  where its weight is positive (the last position's weight is a padding zero); the other takes the first 2047
  positions and multiplies each divergence by its weight.  The two sums have the same terms: a block decomposition of
  a finite sum, the last position contributing nothing, and the row law (`termK_eq_termR`) on rows of real teacher
  scores.
-/
import proofs.«109211_j5231270166835_2_alg».proof.Proof.LibKlRows
import proofs.«109211_j5231270166835_2_alg».proof.Proof.LibBlockSum
import Idealize.ShloMosaic.Lib.ValueIdx

noncomputable section

open scoped BigOperators

namespace Cert.KlSpec

open Idealize.ShloMosaic Idealize.ShloMosaic.ValueIdx Cert.KlRows Cert.Lib.BlockSum

/-- The shapes of the token ids and of a score array. -/
abbrev SIds : Shape := ⟨2, ![2, 2048]⟩
abbrev SArg : Shape := ⟨3, ![2, 2048, 32000]⟩

/-- The scores of position `p` of sequence `b`, one per class. -/
def row (x : SArg.Idx → EReal) (b : Fin 2) (p : Fin 2048) : Fin 32000 → EReal := fun v => x (ix3 b p v)

/-- The flag of position `p < 2047` of sequence `b`: token `p + 1` is not the ignored id `-100`. -/
def flag (ids : SIds.Idx → BitVec 32) (b : Fin 2) (p : Fin 2047) : BitVec 1 :=
  IntOp.cmpi .ne (ids (ix2 b ⟨1 + p.val, by have := p.isLt; omega⟩)) 4294967196#32

/-- Its weight, `0` or `1`. -/
def weight (ids : SIds.Idx → BitVec 32) (b : Fin 2) (p : Fin 2047) : EReal := (((flag ids b p).toNat : ℝ) : EReal)

/-- The weights with the padding zero at the last position. -/
def weightFull (ids : SIds.Idx → BitVec 32) (b : Fin 2) (p : Fin 2048) : EReal :=
  if h : p.val < 2047 then weight ids b ⟨p.val, h⟩ else zeroW

/-- A position's divergence, in the two spellings of a class's term. -/
def rowK (x1 x2 : SArg.Idx → EReal) (b : Fin 2) (p : Fin 2048) : EReal := ∑ v : Fin 32000, termK (row x1 b p) (row x2 b p) v
def rowR (x1 x2 : SArg.Idx → EReal) (b : Fin 2) (p : Fin 2048) : EReal := ∑ v : Fin 32000, termR (row x1 b p) (row x2 b p) v

/-- A position's contribution where the divergence is kept when the weight is positive. -/
def keptK (ids : SIds.Idx → BitVec 32) (x1 x2 : SArg.Idx → EReal) (b : Fin 2) (p : Fin 2048) : EReal :=
  Scalar.select (Ideal.cmp .ogt (weightFull ids b p) zeroW) (rowK x1 x2 b p) zeroW

/-- The weighted sum, sequence by sequence, block by block, row by row over all 2048 positions. -/
def numerK (ids : SIds.Idx → BitVec 32) (x1 x2 : SArg.Idx → EReal) : EReal :=
  ∑ b : Fin 2, ∑ s : Fin 64, ∑ r : Fin 32,
    keptK ids x1 x2 b ⟨s.val * 32 + r.val, blockPos_lt (by norm_num : 64 * 32 = 2048) s r⟩

/-- The weighted sum over the first 2047 positions, each divergence times its weight. -/
def numerR (ids : SIds.Idx → BitVec 32) (x1 x2 : SArg.Idx → EReal) : EReal :=
  ∑ b : Fin 2, ∑ p : Fin 2047, rowR x1 x2 b p.castSucc * weight ids b p

/-- The sum of the weights, from the zero word. -/
def denom (ids : SIds.Idx → BitVec 32) : EReal := zeroW + ∑ b : Fin 2, ∑ p : Fin 2047, weight ids b p

/-- The loss. -/
def loss (ids : SIds.Idx → BitVec 32) (x1 x2 : SArg.Idx → EReal) : EReal := Ideal.div (numerR ids x1 x2) (denom ids)

/-- The last position carries the padding zero, so nothing is kept there. -/
private theorem keptK_last (ids : SIds.Idx → BitVec 32) (x1 x2 : SArg.Idx → EReal) (b : Fin 2) :
    keptK ids x1 x2 b (Fin.last 2047) = 0 := by
  have hw : weightFull ids b (Fin.last 2047) = zeroW := by
    unfold weightFull
    rw [dif_neg (show ¬ (Fin.last 2047).val < 2047 from Nat.lt_irrefl 2047)]
  unfold keptK
  rw [hw]
  exact select_zeroW _

/-- At a position below the last, keeping the divergence where the weight is positive is the product of the
    divergence (in the other spelling of a class's term) with the weight. -/
private theorem keptK_castSucc (ids : SIds.Idx → BitVec 32) (x1 x2 : SArg.Idx → EReal)
    (hx2 : ∀ i, ∃ r : ℝ, x2 i = (r : EReal)) (b : Fin 2) (p : Fin 2047) :
    keptK ids x1 x2 b p.castSucc = rowR x1 x2 b p.castSucc * weight ids b p := by
  have hw : weightFull ids b p.castSucc = weight ids b p := by
    unfold weightFull
    rw [dif_pos (show p.castSucc.val < 2047 from p.isLt)]
    rfl
  have hrow : rowK x1 x2 b p.castSucc = rowR x1 x2 b p.castSucc := by
    unfold rowK rowR
    exact Finset.sum_congr rfl fun v _ => termK_eq_termR _ _ (fun _ => hx2 _) v
  unfold keptK
  rw [hw, hrow]
  unfold weight
  exact select_flag _ _

/-- A sum over `n + 1` positions whose last term is `0` is the sum over the first `n`. -/
private theorem sum_drop_last {n : ℕ} (f : Fin (n + 1) → EReal) (h : f (Fin.last n) = 0) :
    ∑ p, f p = ∑ p : Fin n, f p.castSucc := by
  rw [Fin.sum_univ_castSucc, h, add_zero]

/-- On real teacher scores the two weighted sums are the same extended real. -/
theorem numerK_eq_numerR (ids : SIds.Idx → BitVec 32) (x1 x2 : SArg.Idx → EReal)
    (hx2 : ∀ i, ∃ r : ℝ, x2 i = (r : EReal)) : numerK ids x1 x2 = numerR ids x1 x2 := by
  unfold numerK numerR
  refine Finset.sum_congr rfl fun b _ => ?_
  -- the 64 blocks of 32 positions are all 2048 positions
  have h1 : (∑ s : Fin 64, ∑ r : Fin 32,
        keptK ids x1 x2 b ⟨s.val * 32 + r.val, blockPos_lt (by norm_num : 64 * 32 = 2048) s r⟩)
      = ∑ p : Fin 2048, keptK ids x1 x2 b p :=
    (sum_fin_blocks (a := 64) (b := 32) (by norm_num : 64 * 32 = 2048) (fun p => keptK ids x1 x2 b p)).symm
  -- the last position contributes nothing
  have h2 : (∑ p : Fin 2048, keptK ids x1 x2 b p) = ∑ p : Fin 2047, keptK ids x1 x2 b p.castSucc :=
    sum_drop_last (n := 2047) (fun p => keptK ids x1 x2 b p) (keptK_last ids x1 x2 b)
  rw [h1, h2]
  exact Finset.sum_congr rfl fun p _ => keptK_castSucc ids x1 x2 hx2 b p

end Cert.KlSpec

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.KReads.lean ====
/-
  The kernel's blocks and its weight column as entries of the argument arrays.

  At point `t = 64 b + s` the two score windows stage rows `32 s … 32 s + 31` of sequence `b` of the student's and the
  teacher's scores, and the third window the same rows of the weight column.  The weight column is built before the
  launch: the 2047 flags "the next token is not the ignored id" as 0/1 numbers, a padding zero appended to every
  sequence, a unit axis added.  So a point's part is the sum over its 32 rows of `keptK` of the argument arrays, and
  the output array holds, per sequence, the sum over the 64 blocks of those.
-/
import proofs.«109211_j5231270166835_2_alg».proof.Proof.KAcc
import proofs.«109211_j5231270166835_2_alg».proof.Proof.Spec
import proofs.«109211_j5231270166835_2_alg».proof.Proof.LibConcatCols
import Idealize.ShloMosaic.Lib.StableHlo.Run

noncomputable section

open scoped BigOperators

namespace Cert.KernelIdeal.Reads

open Idealize.ShloMosaic Idealize.ShloMosaic.TcCoe Idealize.SL.Sem Idealize.ShloMosaic.ValueIdx
open Idealize.ShloMosaic.StableHlo
open Cert.KlRows Cert.KlSpec Cert.Lib.BlockSum
open Cert.KernelIdeal Cert.KernelIdeal.Gen Cert.KernelIdeal.AccValue

variable (m : (ℓ : Loc nD τ sig) → Buf (Elt Ideal) ℓ)

/-- The input windows' block indices, decided over the grid: the sequence, the block of rows, zero. -/
theorem idx_in : ∀ t : Fin cfg0.N,
    (win0_0.index t (0 : Fin 3) = t.val / 64 ∧ win0_0.index t (1 : Fin 3) = t.val % 64 ∧ win0_0.index t (2 : Fin 3) = 0)
    ∧ (win0_1.index t (0 : Fin 3) = t.val / 64 ∧ win0_1.index t (1 : Fin 3) = t.val % 64 ∧ win0_1.index t (2 : Fin 3) = 0)
    ∧ (win0_2.index t (0 : Fin 3) = t.val / 64 ∧ win0_2.index t (1 : Fin 3) = t.val % 64 ∧ win0_2.index t (2 : Fin 3) = 0) :=
  (by decide +kernel : ∀ t : Fin grid0.N,
    (win0_0.index t (0 : Fin 3) = t.val / 64 ∧ win0_0.index t (1 : Fin 3) = t.val % 64 ∧ win0_0.index t (2 : Fin 3) = 0)
    ∧ (win0_1.index t (0 : Fin 3) = t.val / 64 ∧ win0_1.index t (1 : Fin 3) = t.val % 64 ∧ win0_1.index t (2 : Fin 3) = 0)
    ∧ (win0_2.index t (0 : Fin 3) = t.val / 64 ∧ win0_2.index t (1 : Fin 3) = t.val % 64 ∧ win0_2.index t (2 : Fin 3) = 0))

/-- The student's block at point `t`: row `r`, class `v` is the student's score at row `32 s + r` of sequence `b`. -/
theorem iblk0_apply (c : Dev nD) (t : Fin cfg0.N) (r : Fin 32) (v : Fin 32000) (b : Fin 2) (p : Fin 2048)
    (hb : b.val = t.val / 64) (hp : p.val = t.val % 64 * 32 + r.val) :
    (iblk m c 0 t : Vec Ideal S1x32x32000 .f32) (ix3 (0 : Fin 1) r v)
      = (m ((c : Thread nD τ).loc main_arg1) : S2x2048x32000.Idx → EReal) (ix3 b p v) := by
  obtain ⟨⟨e0, e1, e2⟩, -, -⟩ := idx_in t
  unfold iblk
  rw [View.read_apply]
  show V m c main_arg1 _ = _
  refine (congrFun (V_main_arg1 m c) _).trans ?_
  refine congrArg (m ((c : Thread nD τ).loc main_arg1)) (funext fun a => Fin.ext ?_)
  match a with
  | ⟨0, _⟩ => show win0_0.index t (0 : Fin 3) * 1 + 1 * 0 = b.val; omega
  | ⟨1, _⟩ => show win0_0.index t (1 : Fin 3) * 32 + 1 * r.val = p.val; omega
  | ⟨2, _⟩ => show win0_0.index t (2 : Fin 3) * 32000 + 1 * v.val = v.val; omega

/-- The teacher's block likewise. -/
theorem iblk1_apply (c : Dev nD) (t : Fin cfg0.N) (r : Fin 32) (v : Fin 32000) (b : Fin 2) (p : Fin 2048)
    (hb : b.val = t.val / 64) (hp : p.val = t.val % 64 * 32 + r.val) :
    (iblk m c 1 t : Vec Ideal S1x32x32000 .f32) (ix3 (0 : Fin 1) r v)
      = (m ((c : Thread nD τ).loc main_arg2) : S2x2048x32000.Idx → EReal) (ix3 b p v) := by
  obtain ⟨-, ⟨e0, e1, e2⟩, -⟩ := idx_in t
  unfold iblk
  rw [View.read_apply]
  show V m c main_arg2 _ = _
  refine (congrFun (V_main_arg2 m c) _).trans ?_
  refine congrArg (m ((c : Thread nD τ).loc main_arg2)) (funext fun a => Fin.ext ?_)
  match a with
  | ⟨0, _⟩ => show win0_1.index t (0 : Fin 3) * 1 + 1 * 0 = b.val; omega
  | ⟨1, _⟩ => show win0_1.index t (1 : Fin 3) * 32 + 1 * r.val = p.val; omega
  | ⟨2, _⟩ => show win0_1.index t (2 : Fin 3) * 32000 + 1 * v.val = v.val; omega

/-- The weights' block: row `r` is the weight column at row `32 s + r` of sequence `b`. -/
theorem iblk2_apply (c : Dev nD) (t : Fin cfg0.N) (r : Fin 32) (b : Fin 2) (p : Fin 2048)
    (hb : b.val = t.val / 64) (hp : p.val = t.val % 64 * 32 + r.val) :
    (iblk m c 2 t : Vec Ideal S1x32x1 .f32) (ix3 (0 : Fin 1) r (0 : Fin 1))
      = (V m c main_v6 : S2x2048x1.Idx → EReal) (ix3 b p (0 : Fin 1)) := by
  obtain ⟨-, -, ⟨e0, e1, e2⟩⟩ := idx_in t
  unfold iblk
  rw [View.read_apply]
  show V m c main_v6 _ = _
  refine congrArg (V m c main_v6) (funext fun a => Fin.ext ?_)
  match a with
  | ⟨0, _⟩ => show win0_2.index t (0 : Fin 3) * 1 + 1 * 0 = b.val; omega
  | ⟨1, _⟩ => show win0_2.index t (1 : Fin 3) * 32 + 1 * r.val = p.val; omega
  | ⟨2, _⟩ => show win0_2.index t (2 : Fin 3) * 1 + 1 * 0 = 0; omega

/-! ## The weight column -/

/-- The weight column as the host operations before the launch build it from the token ids. -/
theorem V_mask (c : Dev nD) : (V m c main_v6 : S2x2048x1.Idx → EReal)
    = shapeCast S2x2048x1 (concatenate S2x2048 1
        [⟨S2x2047, uitofp (F := Ideal) .f32 (cmpi .ne
            (extractStridedSlice S2x2047 ![0, 1] (m ((c : Thread nD τ).loc main_arg0)) slices_S2x2048_S2x2047_0_1)
            (broadcastInDim S2x2047 ![] bcast_S_S2x2047 (constantI S_ 32 4294967196#32)))⟩,
         ⟨S2x1, broadcastInDim S2x1 ![] bcast_S_S2x1 (constant (F := Ideal) S_ .f32 0x00000000#32)⟩]
        concatenates_S2x2047_S2x1_S2x2048_d1) shapeCasts_S2x2048_S2x2048x1 := by
  show StableHlo.after hostOps0 (fun b => m (c, b)) (Proc.devRef .tc main_v6) = _
  after_results
  rfl

/-- A slice that drops the first column reads column `q + 1`. -/
theorem slice_apply (x : S2x2048.Idx → BitVec 32) (b : Fin 2) (q : Fin 2047) :
    extractStridedSlice S2x2047 ![0, 1] x slices_S2x2048_S2x2047_0_1 (ix2 b q)
      = x (ix2 b ⟨1 + q.val, by have := q.isLt; omega⟩) := by
  unfold extractStridedSlice
  refine congrArg x (funext fun a => Fin.ext ?_)
  match a with
  | ⟨0, _⟩ => show 0 + b.val = b.val; omega
  | ⟨1, _⟩ => rfl

/-- THE WEIGHT COLUMN at row `p` of sequence `b`: the position's weight, and the padding zero at the last row. -/
theorem mask_apply (c : Dev nD) (b : Fin 2) (p : Fin 2048) :
    (V m c main_v6 : S2x2048x1.Idx → EReal) (ix3 b p (0 : Fin 1))
      = weightFull (m ((c : Thread nD τ).loc main_arg0)) b p := by
  rw [V_mask, Cert.Lib.UnitAxes.shapeCast_ab_ab1_apply]
  unfold weightFull
  by_cases h : p.val < 2047
  · rw [dif_pos h, Cert.Lib.ConcatCols.concat_cols_left _ _ concatenates_S2x2047_S2x1_S2x2048_d1 b p ⟨p.val, h⟩ rfl]
    show FloatOps.uitofp (F := Ideal) .f32 (IntOp.cmpi .ne
      (extractStridedSlice S2x2047 ![0, 1] (m ((c : Thread nD τ).loc main_arg0)) slices_S2x2048_S2x2047_0_1 (ix2 b ⟨p.val, h⟩))
      4294967196#32) = _
    rw [slice_apply]
    rfl
  · rw [dif_neg h, Cert.Lib.ConcatCols.concat_cols_right _ _ concatenates_S2x2047_S2x1_S2x2048_d1 b p (0 : Fin 1)
      (by have := p.isLt; show 2047 + 0 = p.val; omega)]
    rfl

/-! ## A point's part, and the output array, over the argument arrays -/

/-- A kept divergence depends only on the row's weight and on the two rows of scores. -/
theorem kept_congr {a a' : EReal} {f0 f1 g0 g1 : Fin 32000 → EReal} (ha : a = a') (h0 : f0 = g0) (h1 : f1 = g1) :
    Scalar.select (Ideal.cmp .ogt a zeroW) (∑ v : Fin 32000, termK f0 f1 v) zeroW
      = Scalar.select (Ideal.cmp .ogt a' zeroW) (∑ v : Fin 32000, termK g0 g1 v) zeroW := by
  subst ha h0 h1
  rfl

/-- The part of point `64 b + s`: its 32 rows' kept divergences. -/
theorem part_eq (c : Dev nD) (b : Fin 2) (s : Fin 64) (h : 64 * b.val + s.val < cfg0.N) :
    part m c ⟨64 * b.val + s.val, h⟩
      = ∑ r : Fin 32, keptK (m ((c : Thread nD τ).loc main_arg0)) (m ((c : Thread nD τ).loc main_arg1))
          (m ((c : Thread nD τ).loc main_arg2)) b ⟨s.val * 32 + r.val, blockPos_lt (by norm_num : 64 * 32 = 2048) s r⟩ := by
  have hb : b.val = (64 * b.val + s.val) / 64 := by have := s.isLt; omega
  have hs : (64 * b.val + s.val) % 64 = s.val := by have := s.isLt; omega
  refine Finset.sum_congr rfl fun r _ => ?_
  have hp : (⟨s.val * 32 + r.val, blockPos_lt (by norm_num : 64 * 32 = 2048) s r⟩ : Fin 2048).val
      = (64 * b.val + s.val) % 64 * 32 + r.val := by rw [hs]
  exact kept_congr
    ((iblk2_apply m c ⟨64 * b.val + s.val, h⟩ r b ⟨s.val * 32 + r.val, blockPos_lt (by norm_num : 64 * 32 = 2048) s r⟩ hb hp).trans
      (mask_apply m c b ⟨s.val * 32 + r.val, blockPos_lt (by norm_num : 64 * 32 = 2048) s r⟩))
    (funext fun c' => iblk0_apply m c ⟨64 * b.val + s.val, h⟩ r c' b
      ⟨s.val * 32 + r.val, blockPos_lt (by norm_num : 64 * 32 = 2048) s r⟩ hb hp)
    (funext fun c' => iblk1_apply m c ⟨64 * b.val + s.val, h⟩ r c' b
      ⟨s.val * 32 + r.val, blockPos_lt (by norm_num : 64 * 32 = 2048) s r⟩ hb hp)

/-- The output array's entry of sequence `b`: the sum over the 64 blocks and their 32 rows of the kept divergences. -/
theorem G_apply (c : Dev nD) (b : Fin 2) :
    G m c (ix3 b (0 : Fin 1) (0 : Fin 1))
      = ∑ s : Fin 64, ∑ r : Fin 32, keptK (m ((c : Thread nD τ).loc main_arg0)) (m ((c : Thread nD τ).loc main_arg1))
          (m ((c : Thread nD τ).loc main_arg2)) b ⟨s.val * 32 + r.val, blockPos_lt (by norm_num : 64 * 32 = 2048) s r⟩ := by
  unfold G
  refine Finset.sum_congr rfl fun s _ => ?_
  have h : 64 * b.val + s.val < cfg0.N := by rw [hN]; have := b.isLt; have := s.isLt; omega
  show partN m c (64 * b.val + s.val) = _
  unfold partN
  rw [dif_pos h]
  exact part_eq m c b s h

end Cert.KernelIdeal.Reads

end
-- ==== Proof.KValue.lean ====
/-
  The kernel program's result: the loss.

  After the launch the host sums the two batch totals of the output array from zero and divides by the sum of the
  weights, which it formed before the launch.  The batch totals are sums of kept divergences over blocks and rows
  (`Cert.KlSpec.numerK` once the two batches are added), and on real teacher scores that is the weighted sum the
  specification divides (`numerK_eq_numerR`), so the program's result is `Cert.KlSpec.loss` of its three arguments.
-/
import proofs.«109211_j5231270166835_2_alg».proof.Proof.KReads

noncomputable section

open scoped BigOperators

namespace Cert.KernelIdeal.KValue

open Idealize.ShloMosaic Idealize.ShloMosaic.TcCoe Idealize.SL.Sem Idealize.ShloMosaic.ValueIdx
open Idealize.ShloMosaic.StableHlo
open Cert.KlRows Cert.KlSpec Cert.Lib.BlockSum
open Cert.KernelIdeal Cert.KernelIdeal.Gen Cert.KernelIdeal.AccValue Cert.KernelIdeal.Reads

variable (m : (ℓ : Loc nD τ sig) → Buf (Elt Ideal) ℓ) (ρ : Dev nD → PrngReg)

/-- The sum of the weights as the host forms it before the launch. -/
theorem V_denom (c : Dev nD) : (V m c main_v7 : S_.Idx → EReal)
    = Host.reduceAdd (F := Ideal) (uitofp (F := Ideal) .f32 (cmpi .ne
          (extractStridedSlice S2x2047 ![0, 1] (m ((c : Thread nD τ).loc main_arg0)) slices_S2x2048_S2x2047_0_1)
          (broadcastInDim S2x2047 ![] bcast_S_S2x2047 (constantI S_ 32 4294967196#32))))
        (constant (F := Ideal) S_ .f32 0x00000000#32) reducesTo_S2x2047_S_d0_1 h_S_ := by
  show StableHlo.after hostOps0 (fun b => m (c, b)) (Proc.devRef .tc main_v7) = _
  after_results
  try rfl

/-- It is the specification's denominator. -/
theorem denom_apply (c : Dev nD) (i : S_.Idx) :
    (V m c main_v7 : S_.Idx → EReal) i = denom (m ((c : Thread nD τ).loc main_arg0)) := by
  rw [V_denom]
  simp only [Host.reduceAdd, Ideal.hostReduceAdd_def]
  rw [Ideal.hostReduceAdd_total reducesTo_S2x2047_S_d0_1 (fun b => b.elim0) _ _ i]
  unfold denom
  rw [sum_idx2]
  refine congrArg (fun z : EReal => zeroW + z) (Finset.sum_congr rfl fun b _ => Finset.sum_congr rfl fun p _ => ?_)
  show FloatOps.uitofp (F := Ideal) .f32 (IntOp.cmpi .ne
      (extractStridedSlice S2x2047 ![0, 1] (m ((c : Thread nD τ).loc main_arg0)) slices_S2x2048_S2x2047_0_1 (ix2 b p))
      4294967196#32) = _
  rw [slice_apply]
  rfl

/-- The two batch totals added are the block-by-block weighted sum. -/
theorem sum_G (c : Dev nD) :
    zeroW + ∑ j : S2x1x1.Idx, G m c j
      = numerK (m ((c : Thread nD τ).loc main_arg0)) (m ((c : Thread nD τ).loc main_arg1)) (m ((c : Thread nD τ).loc main_arg2)) := by
  rw [zeroW_eq, zero_add, Cert.Lib.TileSums.sum_idx3]
  unfold numerK
  refine Finset.sum_congr rfl fun b _ => ?_
  rw [Fin.sum_univ_one, Fin.sum_univ_one]
  exact G_apply m c b

/-- THE TAIL: the result buffer after the host operations that follow the launch. -/
theorem tail_value (c : Dev nD) (i : S_.Idx) :
    Pipeline.afterTail₀ cfgs (dats m) 0 (V0 m) [hostOps1] c main_v10 i
      = Ideal.div (numerK (m ((c : Thread nD τ).loc main_arg0)) (m ((c : Thread nD τ).loc main_arg1)) (m ((c : Thread nD τ).loc main_arg2)))
          (denom (m ((c : Thread nD τ).loc main_arg0))) := by
  have e8 : Pipeline.withArrays (cfgs 0).spec c (V0 m c) (fun w => (dats m 0 c).arrAt w (cfgs 0).N) (Proc.devRef .tc main_v8)
      = G m c := (Pipeline.withArrays_arr spec0 launch0.win.arr_inj c _ _ 3).trans (final m c)
  have e7 : Pipeline.withArrays (cfgs 0).spec c (V0 m c) (fun w => (dats m 0 c).arrAt w (cfgs 0).N) (Proc.devRef .tc main_v7)
      = V m c main_v7 :=
    Pipeline.withArrays_of_ne _ c (V0 m c) _ main_v7 (by exact (by decide : ∀ w, Pipeline.arrRef spec0 w ≠ main_v7))
  have key : ∀ (A : S2x1x1.Idx → EReal) (D : S_.Idx → EReal), A = G m c → D = V m c main_v7 →
      Host.divf (F := Ideal) (Host.reduceAdd (F := Ideal) A (constant (F := Ideal) S_ .f32 0x00000000#32) reducesTo_S2x1x1_S_d0_1_2 h_S_) D i
        = Ideal.div (numerK (m ((c : Thread nD τ).loc main_arg0)) (m ((c : Thread nD τ).loc main_arg1)) (m ((c : Thread nD τ).loc main_arg2)))
            (denom (m ((c : Thread nD τ).loc main_arg0))) := by
    intro A D hA hD
    show Ideal.div (Host.reduceAdd (F := Ideal) A (constant (F := Ideal) S_ .f32 0x00000000#32) reducesTo_S2x1x1_S_d0_1_2 h_S_ i)
      (D i) = _
    rw [hD, denom_apply]
    refine congrArg (fun z : EReal => Ideal.div z (denom (m ((c : Thread nD τ).loc main_arg0)))) ?_
    simp only [Host.reduceAdd, Ideal.hostReduceAdd_def]
    rw [Ideal.hostReduceAdd_total reducesTo_S2x1x1_S_d0_1_2 (fun b => b.elim0) _ _ i, hA]
    exact sum_G m c
  unfold Pipeline.afterTail₀
  show StableHlo.after hostOps1 _ (Proc.devRef .tc main_v10) i = _
  after_results
  exact key _ _ e8 e7

/-- THE KERNEL PROGRAM'S RUN, READ: on real teacher scores every execution ends with the result buffer at the loss
    of the three arguments, and with the arguments unchanged. -/
theorem run (hx2 : ∀ (c : Dev nD) i, ∃ r : ℝ, (m ((c : Thread nD τ).loc main_arg2) : S2x2048x32000.Idx → EReal) i = (r : EReal)) :
    θ_run defs (onTc (τ := τ) (main (F := Ideal))) ⟨m, fun _ => 0, ρ⟩ fun r => ∀ c : Dev nD,
      r.2.mem ((c.tc : Thread nD τ).loc main_v10)
        = (fun _ => loss (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (funext fun i => by
        rw [tail_value m c i]
        unfold loss
        rw [numerK_eq_numerR _ _ _ (hx2 c)]),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.KValue

end
-- ==== Proof.RefValue.lean ====
/-
  The reference program's result is the loss.

  Read one operation at a time, the reference takes the first 2047 positions of every sequence, forms each position's
  divergence as the sum over the classes of `termR` of the student's and the teacher's row — its row maximum is taken
  from `-∞` and once more against `-∞`, which changes nothing, and its sums start from the zero word, which adds
  nothing —, multiplies by the position's weight, sums over the 2 × 2047 positions and divides by the sum of the
  weights: `Cert.KlSpec.loss`.
-/
import proofs.«109211_j5231270166835_2_alg».proof.Proof.RefRead
import proofs.«109211_j5231270166835_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.KlRows Cert.KlSpec
open Cert.ReferenceIdeal Cert.ReferenceIdeal.Gen Cert.ReferenceIdeal.ReadP

/-! ### Indices -/

/-- Over position `(b, p)`, the index with class `k` put back on the reduced axis is `(b, p, k)`. -/
private theorem lift_ix3 (h : S2x2047x32000.Reduces [2] S2x2047) (b : Fin 2) (p : Fin 2047)
    (k : Fin (S2x2047x32000.size 2)) : h.lift (ix2 b p) k = ix3 b p (⟨k.val, k.isLt⟩ : Fin 32000) := by
  funext c; apply Fin.ext
  match c with | ⟨0, _⟩ => rfl | ⟨1, _⟩ => rfl | ⟨2, _⟩ => rfl

/-! ### The weights -/

/-- The converted "token `p + 1` is not the ignored id" flag is the position's weight. -/
private theorem v3_eq (x0 : (⟨S2x2048, .i32⟩ : BufTy).Contents (Elt Ideal)) (b : Fin 2) (p : Fin 2047) :
    val_main_v3 (F := Ideal) x0 (ix2 b p) = weight x0 b p := by
  rw [val_main_v3_apply, val_main_v2_apply, val_main_v0_apply, val_main_v1_apply, val_main_c_apply]
  have hi : idx_main_v0 (ix2 b p) = ix2 b (⟨1 + p.val, by have := p.isLt; omega⟩ : Fin 2048) :=
    funext fun a => Fin.ext (by match a with | ⟨0, _⟩ => rfl | ⟨1, _⟩ => rfl)
  rw [hi]
  rfl

/-! ### The log-probabilities of the student's scores (the program's first log-softmax) -/

/-- The sliced scores at position `p` are the full array's row at the same position. -/
private theorem v4_eq (x1 : (⟨S2x2048x32000, .f32⟩ : BufTy).Contents (Elt Ideal)) (b : Fin 2) (p : Fin 2047) (k : Fin 32000) :
    val_main_v4 (F := Ideal) x1 (ix3 b p k) = row x1 b p.castSucc k := by
  rw [val_main_v4_apply]
  exact congrArg x1 (funext fun a => Fin.ext (by match a with | ⟨0, _⟩ => rfl | ⟨1, _⟩ => rfl | ⟨2, _⟩ => rfl))

/-- The maximum over the class axis, taken from `-∞`, is the row's largest entry. -/
private theorem call1_v0_eq (x1 : (⟨S2x2048x32000, .f32⟩ : BufTy).Contents (Elt Ideal)) (b : Fin 2) (p : Fin 2047) :
    val_main_call1_v0 (F := Ideal) x1 (ix2 b p) = top (row x1 b p.castSucc) := by
  have hR : S2x2047x32000.Reduces [2] S2x2047 := by decide
  unfold val_main_call1_v0
  refine (Host.reduce_eq_fold_single (α := Ideal .f32) (s := S2x2047x32000) (t := S2x2047) (a := (2 : Fin 3)) (u := S_)
    (FloatOps.maximumf (F := Ideal) (φ := .f32)) (val_main_v4 (F := Ideal) x1) (val_main_call1_cst (F := Ideal))
    reducesTo_S2x2047x32000_S2x2047_d2 hR h_S_ (ix2 b p)).trans ?_
  have hf : (val_main_v4 (F := Ideal) x1 ∘ hR.lift (ix2 b p)) = fun k : Fin 32000 => row x1 b p.castSucc k :=
    funext fun k => by
      show val_main_v4 (F := Ideal) x1 (hR.lift (ix2 b p) k) = _
      rw [lift_ix3 hR b p k, v4_eq]
      rfl
  exact congrArg (fun f => Finset.fold max negInfW f (Finset.univ : Finset (Fin 32000))) hf

/-- One more maximum against `-∞` changes nothing. -/
private theorem call1_v2_eq (x1 : (⟨S2x2048x32000, .f32⟩ : BufTy).Contents (Elt Ideal)) (b : Fin 2) (p : Fin 2047) :
    val_main_call1_v2 (F := Ideal) x1 (ix2 b p) = top (row x1 b p.castSucc) := by
  rw [val_main_call1_v2_apply, val_main_call1_v1_apply, val_main_call1_cst_0_apply, call1_v0_eq]
  exact max_negInfW _

/-- The row maximum broadcast back over the classes. -/
private theorem call1_v4_eq (x1 : (⟨S2x2048x32000, .f32⟩ : BufTy).Contents (Elt Ideal)) (b : Fin 2) (p : Fin 2047) (k : Fin 32000) :
    val_main_call1_v4 (F := Ideal) x1 (ix3 b p k) = top (row x1 b p.castSucc) := by
  rw [val_main_call1_v4_apply, val_main_call1_v3_apply]
  have hi : idx_main_call1_v3 (idx_main_call1_v4 (ix3 b p k)) = ix2 b p :=
    funext fun a => Fin.ext (by match a with | ⟨0, _⟩ => rfl | ⟨1, _⟩ => rfl)
  rw [hi, call1_v2_eq]

/-- The shifted score `x c - top x`. -/
private theorem call1_v5_eq (x1 : (⟨S2x2048x32000, .f32⟩ : BufTy).Contents (Elt Ideal)) (b : Fin 2) (p : Fin 2047) (k : Fin 32000) :
    val_main_call1_v5 (F := Ideal) x1 (ix3 b p k) = row x1 b p.castSucc k - top (row x1 b p.castSucc) := by
  rw [val_main_call1_v5_apply, v4_eq, call1_v4_eq]
  rfl

/-- The sum over the classes of the exponentials of the shifted scores, from the zero word. -/
private theorem call1_v7_eq (x1 : (⟨S2x2048x32000, .f32⟩ : BufTy).Contents (Elt Ideal)) (b : Fin 2) (p : Fin 2047) :
    val_main_call1_v7 (F := Ideal) x1 (ix2 b p) = sumExp (row x1 b p.castSucc) := by
  rw [val_main_call1_v7_apply]
  have hz : val_main_call1_cst_1 (F := Ideal) (Shape.Idx.first h_S_) = 0 := zeroW_eq
  rw [hz, zero_add]
  unfold sumExp
  refine Finset.sum_congr rfl fun k _ => ?_
  have hi : idx_main_call1_v7 (ix2 b p) k = ix3 b p k :=
    funext fun a => Fin.ext (by match a with | ⟨0, _⟩ => rfl | ⟨1, _⟩ => rfl | ⟨2, _⟩ => rfl)
  rw [hi, val_main_call1_v6_apply, call1_v5_eq]
  rfl

/-- Its logarithm broadcast back over the classes. -/
private theorem call1_v10_eq (x1 : (⟨S2x2048x32000, .f32⟩ : BufTy).Contents (Elt Ideal)) (b : Fin 2) (p : Fin 2047) (k : Fin 32000) :
    val_main_call1_v10 (F := Ideal) x1 (ix3 b p k) = Ideal.log (sumExp (row x1 b p.castSucc)) := by
  rw [val_main_call1_v10_apply, val_main_call1_v9_apply, val_main_call1_v8_apply]
  have hi : idx_main_call1_v8 (idx_main_call1_v10 (ix3 b p k)) = ix2 b p :=
    funext fun a => Fin.ext (by match a with | ⟨0, _⟩ => rfl | ⟨1, _⟩ => rfl)
  rw [hi, call1_v7_eq]
  exact Ideal.hostUnary_log_def _

/-- The log-softmax's result is the log-probability of the class. -/
private theorem v7_eq (x1 : (⟨S2x2048x32000, .f32⟩ : BufTy).Contents (Elt Ideal)) (b : Fin 2) (p : Fin 2047) (k : Fin 32000) :
    val_main_v7 (F := Ideal) x1 (ix3 b p k) = logp (row x1 b p.castSucc) k := by
  rw [val_main_v7_apply, call1_v5_eq, call1_v10_eq]
  rfl

/-! ### The log-probabilities of the teacher's scores (the program's second log-softmax) -/

/-- The sliced scores at position `p` are the full array's row at the same position. -/
private theorem v5_eq (x2 : (⟨S2x2048x32000, .f32⟩ : BufTy).Contents (Elt Ideal)) (b : Fin 2) (p : Fin 2047) (k : Fin 32000) :
    val_main_v5 (F := Ideal) x2 (ix3 b p k) = row x2 b p.castSucc k := by
  rw [val_main_v5_apply]
  exact congrArg x2 (funext fun a => Fin.ext (by match a with | ⟨0, _⟩ => rfl | ⟨1, _⟩ => rfl | ⟨2, _⟩ => rfl))

/-- The maximum over the class axis, taken from `-∞`, is the row's largest entry. -/
private theorem call2_v0_eq (x2 : (⟨S2x2048x32000, .f32⟩ : BufTy).Contents (Elt Ideal)) (b : Fin 2) (p : Fin 2047) :
    val_main_call2_v0 (F := Ideal) x2 (ix2 b p) = top (row x2 b p.castSucc) := by
  have hR : S2x2047x32000.Reduces [2] S2x2047 := by decide
  unfold val_main_call2_v0
  refine (Host.reduce_eq_fold_single (α := Ideal .f32) (s := S2x2047x32000) (t := S2x2047) (a := (2 : Fin 3)) (u := S_)
    (FloatOps.maximumf (F := Ideal) (φ := .f32)) (val_main_v5 (F := Ideal) x2) (val_main_call2_cst (F := Ideal))
    reducesTo_S2x2047x32000_S2x2047_d2 hR h_S_ (ix2 b p)).trans ?_
  have hf : (val_main_v5 (F := Ideal) x2 ∘ hR.lift (ix2 b p)) = fun k : Fin 32000 => row x2 b p.castSucc k :=
    funext fun k => by
      show val_main_v5 (F := Ideal) x2 (hR.lift (ix2 b p) k) = _
      rw [lift_ix3 hR b p k, v5_eq]
      rfl
  exact congrArg (fun f => Finset.fold max negInfW f (Finset.univ : Finset (Fin 32000))) hf

/-- One more maximum against `-∞` changes nothing. -/
private theorem call2_v2_eq (x2 : (⟨S2x2048x32000, .f32⟩ : BufTy).Contents (Elt Ideal)) (b : Fin 2) (p : Fin 2047) :
    val_main_call2_v2 (F := Ideal) x2 (ix2 b p) = top (row x2 b p.castSucc) := by
  rw [val_main_call2_v2_apply, val_main_call2_v1_apply, val_main_call2_cst_0_apply, call2_v0_eq]
  exact max_negInfW _

/-- The row maximum broadcast back over the classes. -/
private theorem call2_v4_eq (x2 : (⟨S2x2048x32000, .f32⟩ : BufTy).Contents (Elt Ideal)) (b : Fin 2) (p : Fin 2047) (k : Fin 32000) :
    val_main_call2_v4 (F := Ideal) x2 (ix3 b p k) = top (row x2 b p.castSucc) := by
  rw [val_main_call2_v4_apply, val_main_call2_v3_apply]
  have hi : idx_main_call2_v3 (idx_main_call2_v4 (ix3 b p k)) = ix2 b p :=
    funext fun a => Fin.ext (by match a with | ⟨0, _⟩ => rfl | ⟨1, _⟩ => rfl)
  rw [hi, call2_v2_eq]

/-- The shifted score `x c - top x`. -/
private theorem call2_v5_eq (x2 : (⟨S2x2048x32000, .f32⟩ : BufTy).Contents (Elt Ideal)) (b : Fin 2) (p : Fin 2047) (k : Fin 32000) :
    val_main_call2_v5 (F := Ideal) x2 (ix3 b p k) = row x2 b p.castSucc k - top (row x2 b p.castSucc) := by
  rw [val_main_call2_v5_apply, v5_eq, call2_v4_eq]
  rfl

/-- The sum over the classes of the exponentials of the shifted scores, from the zero word. -/
private theorem call2_v7_eq (x2 : (⟨S2x2048x32000, .f32⟩ : BufTy).Contents (Elt Ideal)) (b : Fin 2) (p : Fin 2047) :
    val_main_call2_v7 (F := Ideal) x2 (ix2 b p) = sumExp (row x2 b p.castSucc) := by
  rw [val_main_call2_v7_apply]
  have hz : val_main_call2_cst_1 (F := Ideal) (Shape.Idx.first h_S_) = 0 := zeroW_eq
  rw [hz, zero_add]
  unfold sumExp
  refine Finset.sum_congr rfl fun k _ => ?_
  have hi : idx_main_call2_v7 (ix2 b p) k = ix3 b p k :=
    funext fun a => Fin.ext (by match a with | ⟨0, _⟩ => rfl | ⟨1, _⟩ => rfl | ⟨2, _⟩ => rfl)
  rw [hi, val_main_call2_v6_apply, call2_v5_eq]
  rfl

/-- Its logarithm broadcast back over the classes. -/
private theorem call2_v10_eq (x2 : (⟨S2x2048x32000, .f32⟩ : BufTy).Contents (Elt Ideal)) (b : Fin 2) (p : Fin 2047) (k : Fin 32000) :
    val_main_call2_v10 (F := Ideal) x2 (ix3 b p k) = Ideal.log (sumExp (row x2 b p.castSucc)) := by
  rw [val_main_call2_v10_apply, val_main_call2_v9_apply, val_main_call2_v8_apply]
  have hi : idx_main_call2_v8 (idx_main_call2_v10 (ix3 b p k)) = ix2 b p :=
    funext fun a => Fin.ext (by match a with | ⟨0, _⟩ => rfl | ⟨1, _⟩ => rfl)
  rw [hi, call2_v7_eq]
  exact Ideal.hostUnary_log_def _

/-- The log-softmax's result is the log-probability of the class. -/
private theorem v8_eq (x2 : (⟨S2x2048x32000, .f32⟩ : BufTy).Contents (Elt Ideal)) (b : Fin 2) (p : Fin 2047) (k : Fin 32000) :
    val_main_v8 (F := Ideal) x2 (ix3 b p k) = logp (row x2 b p.castSucc) k := by
  rw [val_main_v8_apply, call2_v5_eq, call2_v10_eq]
  rfl

/-! ### A class's term, a position's divergence, and the two sums -/

/-- One class's term of the reference: `0` where the student's score is infinite, else the teacher's probability
    times the difference of the log-probabilities. -/
private theorem v12_eq (x1 x2 : (⟨S2x2048x32000, .f32⟩ : BufTy).Contents (Elt Ideal)) (b : Fin 2) (p : Fin 2047) (k : Fin 32000) :
    val_main_v12 (F := Ideal) x1 x2 (ix3 b p k) = termR (row x1 b p.castSucc) (row x2 b p.castSucc) k := by
  rw [val_main_v12_apply, val_main_v6_apply, val_main_call0_v0_apply, val_main_call0_v1_apply, val_main_call0_cst_apply,
    val_main_call3_v1_apply, val_main_call3_v0_apply, val_main_cst_apply,
    val_main_v11_apply, val_main_v9_apply, val_main_v10_apply, v8_eq, v7_eq, v4_eq]
  rfl

/-- A position's divergence: the sum of its classes' terms, from the zero word. -/
private theorem v13_eq (x1 x2 : (⟨S2x2048x32000, .f32⟩ : BufTy).Contents (Elt Ideal)) (b : Fin 2) (p : Fin 2047) :
    val_main_v13 (F := Ideal) x1 x2 (ix2 b p) = rowR x1 x2 b p.castSucc := by
  rw [val_main_v13_apply]
  have hz : val_main_cst_0 (F := Ideal) (Shape.Idx.first h_S_) = 0 := zeroW_eq
  rw [hz, zero_add]
  unfold rowR
  refine Finset.sum_congr rfl fun k _ => ?_
  have hi : idx_main_v13 (ix2 b p) k = ix3 b p k :=
    funext fun a => Fin.ext (by match a with | ⟨0, _⟩ => rfl | ⟨1, _⟩ => rfl | ⟨2, _⟩ => rfl)
  rw [hi, v12_eq]

/-- The weighted sum over the 2 × 2047 positions, from the zero word. -/
private theorem v15_eq (x0 : (⟨S2x2048, .i32⟩ : BufTy).Contents (Elt Ideal)) (x1 x2 : (⟨S2x2048x32000, .f32⟩ : BufTy).Contents (Elt Ideal)) (i : S_.Idx) :
    val_main_v15 (F := Ideal) x0 x1 x2 i = numerR x0 x1 x2 := by
  rw [val_main_v15_apply]
  have hz : val_main_cst_1 (F := Ideal) (Shape.Idx.first h_S_) = 0 := zeroW_eq
  rw [hz, zero_add]
  unfold numerR
  refine (sum_idx2 (n0 := 2) (n1 := 2047) (fun j => val_main_v14 (F := Ideal) x0 x1 x2 j)).trans ?_
  refine Finset.sum_congr rfl fun b _ => Finset.sum_congr rfl fun p _ => ?_
  rw [val_main_v14_apply, v13_eq, v3_eq]
  rfl

/-- The sum of the weights, from the zero word. -/
private theorem v16_eq (x0 : (⟨S2x2048, .i32⟩ : BufTy).Contents (Elt Ideal)) (i : S_.Idx) : val_main_v16 (F := Ideal) x0 i = denom x0 := by
  rw [val_main_v16_apply]
  unfold denom
  refine congrArg (zeroW + ·) ?_
  refine (sum_idx2 (n0 := 2) (n1 := 2047) (fun j => val_main_v3 (F := Ideal) x0 j)).trans ?_
  exact Finset.sum_congr rfl fun b _ => Finset.sum_congr rfl fun p _ => v3_eq x0 b p

/-- The reference's result, read at its one index, is the loss of its three arguments. -/
theorem val_eq_loss (x0 : (⟨S2x2048, .i32⟩ : BufTy).Contents (Elt Ideal)) (x1 x2 : (⟨S2x2048x32000, .f32⟩ : BufTy).Contents (Elt Ideal))
    (i : S_.Idx) : val_main_v17 (F := Ideal) x0 x1 x2 i = loss x0 x1 x2 := by
  rw [val_main_v17_apply, v15_eq, v16_eq]
  rfl

end Cert.ReferenceIdeal.RefValue

end
-- ==== Proof.lean ====
/-
  A distillation loss computed by a fused kernel equals its plain reference, over the extended reals.

  Both programs take 2 sequences of 2048 token ids and the student's and the teacher's scores of 32000 classes at
  every position, and return one number: the sum over the positions whose next token is not the ignored id of the
  forward Kullback–Leibler divergence between the teacher's and the student's softmax at that position (classes
  whose student score is infinite left out), divided by the number of such positions.

  The reference takes the log-softmax of the first 2047 positions of both score arrays, exponentiates the teacher's
  to get its probabilities, multiplies each position's divergence by its 0/1 weight, and sums.  The kernel walks
  every sequence in 64 blocks of 32 positions, all 2048 of them; per row it takes the row's largest score and the sum
  of the shifted exponentials once, forms the teacher's probabilities as the exponentials times the reciprocal of
  that sum, keeps a row's divergence where the row's weight (zero at the padded last position) is positive, and
  accumulates one total per sequence across the 64 blocks, which the host then adds and divides.

  Why they agree.  The order and grouping of the sums do not matter (the extended reals are a commutative monoid under
  addition); the padded last position contributes zero; keeping a value where a 0/1 weight is positive is multiplying
  by the weight; the maximum taken once more against -∞ and the sums started from the zero word change nothing.  The
  one law that needs the precondition is `exp a * (1 / L) = exp (a - log L)`: with every teacher score a real number,
  `a` is real and `L`, a sum of exponentials of reals one of which is `exp 0`, is a positive real.  Nothing is needed of
  the student's scores beyond what the precondition says.

  The modules: LibKlRows (the row law and the weight law), Spec (the loss in both arrangements and their equality),
  Finite (the precondition read as "every score is real"), KBody / LibKlBlock / KStep (one grid point of the kernel),
  KAcc (the per-sequence totals the output array ends with), KReads (blocks and weights as entries of the arguments),
  KValue (the host operations after the launch, and the kernel program's run), RefRun / RefRead / RefValue (the
  reference program's run and its result).
-/
import proofs.«109211_j5231270166835_2_alg».proof.Defs
import proofs.«109211_j5231270166835_2_alg».proof.Proof.Gen.Kernel
import proofs.«109211_j5231270166835_2_alg».proof.Proof.Gen.Kernel.Skeleton
import proofs.«109211_j5231270166835_2_alg».proof.Proof.Gen.Kernel.Launch
import proofs.«109211_j5231270166835_2_alg».proof.Proof.Gen.Kernel.Points
import proofs.«109211_j5231270166835_2_alg».proof.Proof.Gen.Kernel.Frame
import proofs.«109211_j5231270166835_2_alg».proof.Proof.Gen.KernelIdeal
import proofs.«109211_j5231270166835_2_alg».proof.Proof.Gen.KernelIdeal.Skeleton
import proofs.«109211_j5231270166835_2_alg».proof.Proof.Gen.KernelIdeal.Launch
import proofs.«109211_j5231270166835_2_alg».proof.Proof.Gen.KernelIdeal.Points
import proofs.«109211_j5231270166835_2_alg».proof.Proof.Gen.KernelIdeal.Frame
import proofs.«109211_j5231270166835_2_alg».proof.Proof.Gen.ReferenceIdeal
import proofs.«109211_j5231270166835_2_alg».proof.Proof.Gen.Pre_finite_inputs
import proofs.«109211_j5231270166835_2_alg».proof.Proof.Finite
import proofs.«109211_j5231270166835_2_alg».proof.Proof.KValue
import proofs.«109211_j5231270166835_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten to read the kernel over the extended reals. -/
theorem preserves : Cert.preserves_Kernel_KernelIdeal := trivial

/-- Under the precondition both programs end with the loss of their (agreeing) arguments in the result buffer. -/
theorem algebraic : Cert.algebraic_KernelIdeal_ReferenceIdeal := by
  intro m ρ m' ρ' hpre hagree
  have hreal := fun c : Dev Cert.KernelIdeal.nD => Cert.KlFinite.real_of_pre _ _ _ (hpre c)
  refine ⟨fun c => fun _ => Cert.KlSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ (fun c => (hreal c).2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, (hagree c).1, (hagree c).2.1, (hagree c).2.2]
  exact funext fun i => Cert.ReferenceIdeal.RefValue.val_eq_loss _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
